-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S128x10 .f32) (main_arg9 : FVec F S10 .f32) (main_v33 : IVec S_ 1) : IVec S_ 1 :=
  let main_v34 : FVec F S128x10 .f32 := Host.absf main_arg8
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 99
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S1x10, .f32⟩
  | .hbm, ⟨98, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x10, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x10.size a ≤ S128x10.size a
  hwx3_2 : ∀ i : grid3.Coords, EltTy.bits .f32 = 32 ∨ (Rect.block (s := S128x10) S128x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x10.size a ≤ S100000x10.size a
  hwx3_4 : ∀ i : grid3.Coords, EltTy.bits .f32 = 32 ∨ (Rect.block (s := S100000x10) S5000x10.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S100000x10, .f32⟩
  | .hbm, ⟨110, _⟩ => ⟨S1x10, .f32⟩
  | .hbm, ⟨111, _⟩ => ⟨S100000x10, .f32⟩
  | .hbm, ⟨112, _⟩ => ⟨S100000x10, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S100000, .f32⟩
  | .hbm, ⟨117, _⟩ => ⟨S100000, .f32⟩
  | .hbm, ⟨118, _⟩ => ⟨S100000x1, .f32⟩
  | .hbm, ⟨119, _⟩ => ⟨S100000x10, .f32⟩
  | .hbm, ⟨120, _⟩ => ⟨S100000x10, .f32⟩
  | .hbm, ⟨121, _⟩ => ⟨S100000x10, .f32⟩
  | .hbm, ⟨122, _⟩ => ⟨S_, .f32⟩
  | .hbm, ⟨123, _⟩ => ⟨S100000, .f32⟩
  | .hbm, ⟨124, _⟩ => ⟨S100000x1, .f32⟩
  | .hbm, ⟨125, _⟩ => ⟨S100000x1, .f32⟩
  | .hbm, ⟨126, _⟩ => ⟨S100000x10, .f32⟩
  | .hbm, ⟨127, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call2_cst : Ref sig .tc := ⟨.hbm, 113, rfl⟩
abbrev main_call2_v0 : Ref sig .tc := ⟨.hbm, 114, rfl⟩
abbrev main_call2_cst_0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_cst_1 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_v84 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.RefSegs.lean ====
/-
  The reference's line of 118 host operations, cut into four consecutive segments: the graph's structure and the first
  product; then, three times, an aggregation with the bias (and the rectifier) and the next product — the last segment
  also holds the classifier's bias and the row-wise log-softmax.
-/
import proofs.«117442_j996432412811_1_alg».proof.Proof.RunP
import proofs.«117442_j996432412811_1_alg».proof.Proof.ReadP

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

section Segments
variable {F : FTy → Type} [FloatOps F]

/-! ## The operation list in four consecutive segments -/

abbrev seg0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)),
    binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev seg1 : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg4 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev seg2 : List (HloOp τ sig (Elt F)) :=
  [ nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v53 (broadcastInDim S1700000x1 ![0] bcast_S1700000_S1700000x1_0 : (⟨S1700000, .f32⟩ : BufTy).Contents (Elt F) → (⟨S1700000x1, .f32⟩ : BufTy).Contents (Elt F)),
    unary main_v53 main_v54 (broadcastInDim S1700000x128 ![0, 1] bcast_S1700000x1_S1700000x128_0_1 : (⟨S1700000x1, .f32⟩ : BufTy).Contents (Elt F) → (⟨S1700000x128, .f32⟩ : BufTy).Contents (Elt F)),
    binary main_v52 main_v54 main_v55 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v56 (broadcastInDim S100000x128 ![] bcast_S_S100000x128 : (⟨S_, .f32⟩ : BufTy).Contents (Elt F) → (⟨S100000x128, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v61) (TRef.of (T := ⟨S100000x128, .f32⟩) main_call1_v0) (TRef.of (T := ⟨S100000x128, .f32⟩) main_v62) maximumf,
    binary main_v62 main_arg6 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev seg3 : List (HloOp τ sig (Elt F)) :=
  [ nullary main_c_10 (constantI S_ 32 0#32),
    unary main_c_10 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    binary main_v79 main_arg8 main_v80 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg9 main_v81 (broadcastInDim S1x10 ![1] bcast_S10_S1x10_1 : (⟨S10, .f32⟩ : BufTy).Contents (Elt F) → (⟨S1x10, .f32⟩ : BufTy).Contents (Elt F)),
    unary main_v81 main_v82 (broadcastInDim S100000x10 ![0, 1] bcast_S1x10_S100000x10_0_1 : (⟨S1x10, .f32⟩ : BufTy).Contents (Elt F) → (⟨S100000x10, .f32⟩ : BufTy).Contents (Elt F)),
    binary main_v80 main_v82 main_v83 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call2_cst) (constant S_ .f32 0xFF800000#32),
    TRef.binary (TRef.of (T := ⟨S100000x10, .f32⟩) main_v83) (TRef.of (T := ⟨S_, .f32⟩) main_call2_cst) (TRef.of (T := ⟨S100000, .f32⟩) main_call2_v0) (fun x v => Host.reduce FloatOps.maximumf x v reducesTo_S100000x10_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x10, .f32⟩) main_call2_v4) (broadcastInDim S100000x10 ![0, 1] bcast_S100000x1_S100000x10_0_1),
    TRef.binary (TRef.of (T := ⟨S100000x10, .f32⟩) main_v83) (TRef.of (T := ⟨S100000x10, .f32⟩) main_call2_v4) (TRef.of (T := ⟨S100000x10, .f32⟩) main_call2_v5) subf,
    TRef.unary (TRef.of (T := ⟨S100000x10, .f32⟩) main_call2_v5) (TRef.of (T := ⟨S100000x10, .f32⟩) main_call2_v6) Host.exp,
    TRef.nullary (TRef.of (T := ⟨S_, .f32⟩) main_call2_cst_1) (constant S_ .f32 0x00000000#32),
    TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x10, .f32⟩) main_call2_v10) (broadcastInDim S100000x10 ![0, 1] bcast_S100000x1_S100000x10_0_1),
    TRef.binary (TRef.of (T := ⟨S100000x10, .f32⟩) main_call2_v5) (TRef.of (T := ⟨S100000x10, .f32⟩) main_call2_v10) (TRef.of (T := ⟨S100000x10, .f32⟩) main_v84) subf ]

/-- The program's operations are the four segments in order. -/
theorem ops_eq : (ops : List (HloOp τ sig (Elt F))) = seg0 ++ (seg1 ++ (seg2 ++ seg3)) := rfl

end Segments

end Cert.ReferenceIdeal.Staged

end
-- ==== Proof.RefStage0.lean ====
/-
  The reference's first segment read back from arbitrary starting contents: the source and the target node of every edge
  (self-loops appended), every edge's weight, and the first product; no operation of the segment writes an argument.
-/
import proofs.«117442_j996432412811_1_alg».proof.Proof.RefSegs

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## Segment 0: the graph's structure and the first product -/

theorem sources : after (seg0 (F := Ideal)) V (Proc.devRef .tc main_v3) = val_main_v3 (F := Ideal) (V (Proc.devRef .tc main_arg1)) := by
  after_results_simp
  rfl
theorem targets : after (seg0 (F := Ideal)) V (Proc.devRef .tc main_v6) = val_main_v6 (F := Ideal) (V (Proc.devRef .tc main_arg1)) := by
  after_results_simp
  rfl
theorem weights : after (seg0 (F := Ideal)) V (Proc.devRef .tc main_v26) = val_main_v26 (F := Ideal) (V (Proc.devRef .tc main_arg1)) := by
  after_results_simp
  rfl
theorem product_first : after (seg0 (F := Ideal)) V (Proc.devRef .tc main_v27)
    = val_main_v27 (F := Ideal) (V (Proc.devRef .tc main_arg0)) (V (Proc.devRef .tc main_arg2)) := by
  after_results_simp
  rfl
theorem kept0_main_arg0 : after (seg0 (F := Ideal)) V (Proc.devRef .tc main_arg0) = V (Proc.devRef .tc main_arg0) := by
  after_results_simp
theorem kept0_main_arg1 : after (seg0 (F := Ideal)) V (Proc.devRef .tc main_arg1) = V (Proc.devRef .tc main_arg1) := by
  after_results_simp
theorem kept0_main_arg2 : after (seg0 (F := Ideal)) V (Proc.devRef .tc main_arg2) = V (Proc.devRef .tc main_arg2) := by
  after_results_simp
theorem kept0_main_arg3 : after (seg0 (F := Ideal)) V (Proc.devRef .tc main_arg3) = V (Proc.devRef .tc main_arg3) := by
  after_results_simp
theorem kept0_main_arg4 : after (seg0 (F := Ideal)) V (Proc.devRef .tc main_arg4) = V (Proc.devRef .tc main_arg4) := by
  after_results_simp
theorem kept0_main_arg5 : after (seg0 (F := Ideal)) V (Proc.devRef .tc main_arg5) = V (Proc.devRef .tc main_arg5) := by
  after_results_simp
theorem kept0_main_arg6 : after (seg0 (F := Ideal)) V (Proc.devRef .tc main_arg6) = V (Proc.devRef .tc main_arg6) := by
  after_results_simp
theorem kept0_main_arg7 : after (seg0 (F := Ideal)) V (Proc.devRef .tc main_arg7) = V (Proc.devRef .tc main_arg7) := by
  after_results_simp
theorem kept0_main_arg8 : after (seg0 (F := Ideal)) V (Proc.devRef .tc main_arg8) = V (Proc.devRef .tc main_arg8) := by
  after_results_simp
theorem kept0_main_arg9 : after (seg0 (F := Ideal)) V (Proc.devRef .tc main_arg9) = V (Proc.devRef .tc main_arg9) := by
  after_results_simp

end Cert.ReferenceIdeal.Staged

end
-- ==== Proof.RefStage1.lean ====
/-
  The reference's second segment read back from arbitrary starting contents: the aggregation of the first product, the
  bias, the rectifier, and the second product — the reading's stage function of the same inputs.
-/
import proofs.«117442_j996432412811_1_alg».proof.Proof.RefSegs

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## Segment 1: aggregate, add the bias, rectify, multiply -/

/-! A called function's operations carry the tensor type of each of their values. At a literal buffer, moving a value
    between that type and the buffer's own type changes nothing. -/
theorem toBuf_main_v43 (v : (⟨S100000x128, .f32⟩ : BufTy).Contents (Elt Ideal)) :
    (TRef.of (sig := sig) (T := ⟨S100000x128, .f32⟩) main_v43).toBuf v = v := eq_of_heq (cast_heq _ _)
theorem ofBuf_main_v43 (v : (⟨S100000x128, .f32⟩ : BufTy).Contents (Elt Ideal)) :
    (TRef.of (sig := sig) (T := ⟨S100000x128, .f32⟩) main_v43).ofBuf v = v := eq_of_heq (cast_heq _ _)
theorem toBuf_main_v44 (v : (⟨S100000x128, .f32⟩ : BufTy).Contents (Elt Ideal)) :
    (TRef.of (sig := sig) (T := ⟨S100000x128, .f32⟩) main_v44).toBuf v = v := eq_of_heq (cast_heq _ _)
theorem ofBuf_main_v44 (v : (⟨S100000x128, .f32⟩ : BufTy).Contents (Elt Ideal)) :
    (TRef.of (sig := sig) (T := ⟨S100000x128, .f32⟩) main_v44).ofBuf v = v := eq_of_heq (cast_heq _ _)
theorem toBuf_main_call0_cst (v : (⟨S_, .f32⟩ : BufTy).Contents (Elt Ideal)) :
    (TRef.of (sig := sig) (T := ⟨S_, .f32⟩) main_call0_cst).toBuf v = v := eq_of_heq (cast_heq _ _)
theorem ofBuf_main_call0_cst (v : (⟨S_, .f32⟩ : BufTy).Contents (Elt Ideal)) :
    (TRef.of (sig := sig) (T := ⟨S_, .f32⟩) main_call0_cst).ofBuf v = v := eq_of_heq (cast_heq _ _)
theorem toBuf_main_call0_v0 (v : (⟨S100000x128, .f32⟩ : BufTy).Contents (Elt Ideal)) :
    (TRef.of (sig := sig) (T := ⟨S100000x128, .f32⟩) main_call0_v0).toBuf v = v := eq_of_heq (cast_heq _ _)
theorem ofBuf_main_call0_v0 (v : (⟨S100000x128, .f32⟩ : BufTy).Contents (Elt Ideal)) :
    (TRef.of (sig := sig) (T := ⟨S100000x128, .f32⟩) main_call0_v0).ofBuf v = v := eq_of_heq (cast_heq _ _)

/-- The aggregation inside the segment: the first product gathered along the sources, scaled by the weights and
    scatter-added along the targets. -/
theorem aggregated_second (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1) (hh : V (Proc.devRef .tc main_v27) = val_main_v27 (F := Ideal) x0 x2) :
    after (seg1 (F := Ideal)) V (Proc.devRef .tc main_v40) = val_main_v40 (F := Ideal) x0 x1 x2 := by
  after_results_simp
  rw [hs, hd, hn, hh]
  rfl

theorem layer_second (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1) (hh : V (Proc.devRef .tc main_v27) = val_main_v27 (F := Ideal) x0 x2)
    (h3 : V (Proc.devRef .tc main_arg3) = x3) (h4 : V (Proc.devRef .tc main_arg4) = x4) :
    after (seg1 (F := Ideal)) V (Proc.devRef .tc main_v45) = val_main_v45 (F := Ideal) x0 x1 x2 x3 x4 := by
  have hA := aggregated_second V x0 x1 x2 hs hd hn hh
  simp (disch := decide) only [after_cons, after_nil, nullary_result', unary_result', binary_result', ternary_result', quaternary_result', reshape_result',
    nullary_result_ne', unary_result_ne', binary_result_ne', ternary_result_ne', quaternary_result_ne', reshape_result_ne'] at hA ⊢
  rw [hA, h3, h4]
  simp only [toBuf_main_v43, ofBuf_main_v43, toBuf_main_v44, ofBuf_main_v44, toBuf_main_call0_cst, ofBuf_main_call0_cst, toBuf_main_call0_v0, ofBuf_main_call0_v0]
  unfold val_main_v45 val_main_v44 val_main_v43 val_main_v42 val_main_v41 val_main_call0_v0 val_main_call0_cst
  rfl
theorem kept1_main_v3 : after (seg1 (F := Ideal)) V (Proc.devRef .tc main_v3) = V (Proc.devRef .tc main_v3) := by
  after_results_simp
theorem kept1_main_v6 : after (seg1 (F := Ideal)) V (Proc.devRef .tc main_v6) = V (Proc.devRef .tc main_v6) := by
  after_results_simp
theorem kept1_main_v26 : after (seg1 (F := Ideal)) V (Proc.devRef .tc main_v26) = V (Proc.devRef .tc main_v26) := by
  after_results_simp
theorem kept1_main_arg0 : after (seg1 (F := Ideal)) V (Proc.devRef .tc main_arg0) = V (Proc.devRef .tc main_arg0) := by
  after_results_simp
theorem kept1_main_arg1 : after (seg1 (F := Ideal)) V (Proc.devRef .tc main_arg1) = V (Proc.devRef .tc main_arg1) := by
  after_results_simp
theorem kept1_main_arg2 : after (seg1 (F := Ideal)) V (Proc.devRef .tc main_arg2) = V (Proc.devRef .tc main_arg2) := by
  after_results_simp
theorem kept1_main_arg3 : after (seg1 (F := Ideal)) V (Proc.devRef .tc main_arg3) = V (Proc.devRef .tc main_arg3) := by
  after_results_simp
theorem kept1_main_arg4 : after (seg1 (F := Ideal)) V (Proc.devRef .tc main_arg4) = V (Proc.devRef .tc main_arg4) := by
  after_results_simp
theorem kept1_main_arg5 : after (seg1 (F := Ideal)) V (Proc.devRef .tc main_arg5) = V (Proc.devRef .tc main_arg5) := by
  after_results_simp
theorem kept1_main_arg6 : after (seg1 (F := Ideal)) V (Proc.devRef .tc main_arg6) = V (Proc.devRef .tc main_arg6) := by
  after_results_simp
theorem kept1_main_arg7 : after (seg1 (F := Ideal)) V (Proc.devRef .tc main_arg7) = V (Proc.devRef .tc main_arg7) := by
  after_results_simp
theorem kept1_main_arg8 : after (seg1 (F := Ideal)) V (Proc.devRef .tc main_arg8) = V (Proc.devRef .tc main_arg8) := by
  after_results_simp
theorem kept1_main_arg9 : after (seg1 (F := Ideal)) V (Proc.devRef .tc main_arg9) = V (Proc.devRef .tc main_arg9) := by
  after_results_simp

end Cert.ReferenceIdeal.Staged

end
-- ==== Proof.RefStage2.lean ====
/-
  The reference's third segment read back from arbitrary starting contents: the same steps for the next layer.
-/
import proofs.«117442_j996432412811_1_alg».proof.Proof.RefSegs

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## Segment 2: the same for the next layer -/

/-! A called function's operations carry the tensor type of each of their values. At a literal buffer, moving a value
    between that type and the buffer's own type changes nothing. -/
theorem toBuf_main_v61 (v : (⟨S100000x128, .f32⟩ : BufTy).Contents (Elt Ideal)) :
    (TRef.of (sig := sig) (T := ⟨S100000x128, .f32⟩) main_v61).toBuf v = v := eq_of_heq (cast_heq _ _)
theorem ofBuf_main_v61 (v : (⟨S100000x128, .f32⟩ : BufTy).Contents (Elt Ideal)) :
    (TRef.of (sig := sig) (T := ⟨S100000x128, .f32⟩) main_v61).ofBuf v = v := eq_of_heq (cast_heq _ _)
theorem toBuf_main_v62 (v : (⟨S100000x128, .f32⟩ : BufTy).Contents (Elt Ideal)) :
    (TRef.of (sig := sig) (T := ⟨S100000x128, .f32⟩) main_v62).toBuf v = v := eq_of_heq (cast_heq _ _)
theorem ofBuf_main_v62 (v : (⟨S100000x128, .f32⟩ : BufTy).Contents (Elt Ideal)) :
    (TRef.of (sig := sig) (T := ⟨S100000x128, .f32⟩) main_v62).ofBuf v = v := eq_of_heq (cast_heq _ _)
theorem toBuf_main_call1_cst (v : (⟨S_, .f32⟩ : BufTy).Contents (Elt Ideal)) :
    (TRef.of (sig := sig) (T := ⟨S_, .f32⟩) main_call1_cst).toBuf v = v := eq_of_heq (cast_heq _ _)
theorem ofBuf_main_call1_cst (v : (⟨S_, .f32⟩ : BufTy).Contents (Elt Ideal)) :
    (TRef.of (sig := sig) (T := ⟨S_, .f32⟩) main_call1_cst).ofBuf v = v := eq_of_heq (cast_heq _ _)
theorem toBuf_main_call1_v0 (v : (⟨S100000x128, .f32⟩ : BufTy).Contents (Elt Ideal)) :
    (TRef.of (sig := sig) (T := ⟨S100000x128, .f32⟩) main_call1_v0).toBuf v = v := eq_of_heq (cast_heq _ _)
theorem ofBuf_main_call1_v0 (v : (⟨S100000x128, .f32⟩ : BufTy).Contents (Elt Ideal)) :
    (TRef.of (sig := sig) (T := ⟨S100000x128, .f32⟩) main_call1_v0).ofBuf v = v := eq_of_heq (cast_heq _ _)

/-- The aggregation inside the segment: the second product gathered along the sources, scaled by the weights and
    scatter-added along the targets. -/
theorem aggregated_third (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1) (hh : V (Proc.devRef .tc main_v45) = val_main_v45 (F := Ideal) x0 x1 x2 x3 x4) :
    after (seg2 (F := Ideal)) V (Proc.devRef .tc main_v58) = val_main_v58 (F := Ideal) x0 x1 x2 x3 x4 := by
  after_results_simp
  rw [hs, hd, hn, hh]
  rfl

theorem layer_third (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1) (hh : V (Proc.devRef .tc main_v45) = val_main_v45 (F := Ideal) x0 x1 x2 x3 x4)
    (h5 : V (Proc.devRef .tc main_arg5) = x5) (h6 : V (Proc.devRef .tc main_arg6) = x6) :
    after (seg2 (F := Ideal)) V (Proc.devRef .tc main_v63) = val_main_v63 (F := Ideal) x0 x1 x2 x3 x4 x5 x6 := by
  have hA := aggregated_third V x0 x1 x2 x3 x4 hs hd hn hh
  simp (disch := decide) only [after_cons, after_nil, nullary_result', unary_result', binary_result', ternary_result', quaternary_result', reshape_result',
    nullary_result_ne', unary_result_ne', binary_result_ne', ternary_result_ne', quaternary_result_ne', reshape_result_ne'] at hA ⊢
  rw [hA, h5, h6]
  simp only [toBuf_main_v61, ofBuf_main_v61, toBuf_main_v62, ofBuf_main_v62, toBuf_main_call1_cst, ofBuf_main_call1_cst, toBuf_main_call1_v0, ofBuf_main_call1_v0]
  unfold val_main_v63 val_main_v62 val_main_v61 val_main_v60 val_main_v59 val_main_call1_v0 val_main_call1_cst
  rfl
theorem kept2_main_v3 : after (seg2 (F := Ideal)) V (Proc.devRef .tc main_v3) = V (Proc.devRef .tc main_v3) := by
  after_results_simp
theorem kept2_main_v6 : after (seg2 (F := Ideal)) V (Proc.devRef .tc main_v6) = V (Proc.devRef .tc main_v6) := by
  after_results_simp
theorem kept2_main_v26 : after (seg2 (F := Ideal)) V (Proc.devRef .tc main_v26) = V (Proc.devRef .tc main_v26) := by
  after_results_simp
theorem kept2_main_arg0 : after (seg2 (F := Ideal)) V (Proc.devRef .tc main_arg0) = V (Proc.devRef .tc main_arg0) := by
  after_results_simp
theorem kept2_main_arg1 : after (seg2 (F := Ideal)) V (Proc.devRef .tc main_arg1) = V (Proc.devRef .tc main_arg1) := by
  after_results_simp
theorem kept2_main_arg2 : after (seg2 (F := Ideal)) V (Proc.devRef .tc main_arg2) = V (Proc.devRef .tc main_arg2) := by
  after_results_simp
theorem kept2_main_arg3 : after (seg2 (F := Ideal)) V (Proc.devRef .tc main_arg3) = V (Proc.devRef .tc main_arg3) := by
  after_results_simp
theorem kept2_main_arg4 : after (seg2 (F := Ideal)) V (Proc.devRef .tc main_arg4) = V (Proc.devRef .tc main_arg4) := by
  after_results_simp
theorem kept2_main_arg5 : after (seg2 (F := Ideal)) V (Proc.devRef .tc main_arg5) = V (Proc.devRef .tc main_arg5) := by
  after_results_simp
theorem kept2_main_arg6 : after (seg2 (F := Ideal)) V (Proc.devRef .tc main_arg6) = V (Proc.devRef .tc main_arg6) := by
  after_results_simp
theorem kept2_main_arg7 : after (seg2 (F := Ideal)) V (Proc.devRef .tc main_arg7) = V (Proc.devRef .tc main_arg7) := by
  after_results_simp
theorem kept2_main_arg8 : after (seg2 (F := Ideal)) V (Proc.devRef .tc main_arg8) = V (Proc.devRef .tc main_arg8) := by
  after_results_simp
theorem kept2_main_arg9 : after (seg2 (F := Ideal)) V (Proc.devRef .tc main_arg9) = V (Proc.devRef .tc main_arg9) := by
  after_results_simp

end Cert.ReferenceIdeal.Staged

end
-- ==== Proof.RefStage3.lean ====
/-
  The reference's last segment read back from arbitrary starting contents: the third aggregation, its bias, the classifier
  product, its bias, and the row-wise log-softmax.
-/
import proofs.«117442_j996432412811_1_alg».proof.Proof.RefSegs

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## Segment 3: aggregate, add the bias, the classifier, its bias, the row-wise log-softmax -/

/-! A called function's operations carry the tensor type of each of their values. At a literal buffer, moving a value
    between that type and the buffer's own type changes nothing. -/
theorem toBuf_main_v83 (v : (⟨S100000x10, .f32⟩ : BufTy).Contents (Elt Ideal)) :
    (TRef.of (sig := sig) (T := ⟨S100000x10, .f32⟩) main_v83).toBuf v = v := eq_of_heq (cast_heq _ _)
theorem ofBuf_main_v83 (v : (⟨S100000x10, .f32⟩ : BufTy).Contents (Elt Ideal)) :
    (TRef.of (sig := sig) (T := ⟨S100000x10, .f32⟩) main_v83).ofBuf v = v := eq_of_heq (cast_heq _ _)
theorem toBuf_main_call2_cst (v : (⟨S_, .f32⟩ : BufTy).Contents (Elt Ideal)) :
    (TRef.of (sig := sig) (T := ⟨S_, .f32⟩) main_call2_cst).toBuf v = v := eq_of_heq (cast_heq _ _)
theorem ofBuf_main_call2_cst (v : (⟨S_, .f32⟩ : BufTy).Contents (Elt Ideal)) :
    (TRef.of (sig := sig) (T := ⟨S_, .f32⟩) main_call2_cst).ofBuf v = v := eq_of_heq (cast_heq _ _)
theorem toBuf_main_call2_v0 (v : (⟨S100000, .f32⟩ : BufTy).Contents (Elt Ideal)) :
    (TRef.of (sig := sig) (T := ⟨S100000, .f32⟩) main_call2_v0).toBuf v = v := eq_of_heq (cast_heq _ _)
theorem ofBuf_main_call2_v0 (v : (⟨S100000, .f32⟩ : BufTy).Contents (Elt Ideal)) :
    (TRef.of (sig := sig) (T := ⟨S100000, .f32⟩) main_call2_v0).ofBuf v = v := eq_of_heq (cast_heq _ _)
theorem toBuf_main_call2_cst_0 (v : (⟨S_, .f32⟩ : BufTy).Contents (Elt Ideal)) :
    (TRef.of (sig := sig) (T := ⟨S_, .f32⟩) main_call2_cst_0).toBuf v = v := eq_of_heq (cast_heq _ _)
theorem ofBuf_main_call2_cst_0 (v : (⟨S_, .f32⟩ : BufTy).Contents (Elt Ideal)) :
    (TRef.of (sig := sig) (T := ⟨S_, .f32⟩) main_call2_cst_0).ofBuf v = v := eq_of_heq (cast_heq _ _)
theorem toBuf_main_call2_v1 (v : (⟨S100000, .f32⟩ : BufTy).Contents (Elt Ideal)) :
    (TRef.of (sig := sig) (T := ⟨S100000, .f32⟩) main_call2_v1).toBuf v = v := eq_of_heq (cast_heq _ _)
theorem ofBuf_main_call2_v1 (v : (⟨S100000, .f32⟩ : BufTy).Contents (Elt Ideal)) :
    (TRef.of (sig := sig) (T := ⟨S100000, .f32⟩) main_call2_v1).ofBuf v = v := eq_of_heq (cast_heq _ _)
theorem toBuf_main_call2_v2 (v : (⟨S100000, .f32⟩ : BufTy).Contents (Elt Ideal)) :
    (TRef.of (sig := sig) (T := ⟨S100000, .f32⟩) main_call2_v2).toBuf v = v := eq_of_heq (cast_heq _ _)
theorem ofBuf_main_call2_v2 (v : (⟨S100000, .f32⟩ : BufTy).Contents (Elt Ideal)) :
    (TRef.of (sig := sig) (T := ⟨S100000, .f32⟩) main_call2_v2).ofBuf v = v := eq_of_heq (cast_heq _ _)
theorem toBuf_main_call2_v3 (v : (⟨S100000x1, .f32⟩ : BufTy).Contents (Elt Ideal)) :
    (TRef.of (sig := sig) (T := ⟨S100000x1, .f32⟩) main_call2_v3).toBuf v = v := eq_of_heq (cast_heq _ _)
theorem ofBuf_main_call2_v3 (v : (⟨S100000x1, .f32⟩ : BufTy).Contents (Elt Ideal)) :
    (TRef.of (sig := sig) (T := ⟨S100000x1, .f32⟩) main_call2_v3).ofBuf v = v := eq_of_heq (cast_heq _ _)
theorem toBuf_main_call2_v4 (v : (⟨S100000x10, .f32⟩ : BufTy).Contents (Elt Ideal)) :
    (TRef.of (sig := sig) (T := ⟨S100000x10, .f32⟩) main_call2_v4).toBuf v = v := eq_of_heq (cast_heq _ _)
theorem ofBuf_main_call2_v4 (v : (⟨S100000x10, .f32⟩ : BufTy).Contents (Elt Ideal)) :
    (TRef.of (sig := sig) (T := ⟨S100000x10, .f32⟩) main_call2_v4).ofBuf v = v := eq_of_heq (cast_heq _ _)
theorem toBuf_main_call2_v5 (v : (⟨S100000x10, .f32⟩ : BufTy).Contents (Elt Ideal)) :
    (TRef.of (sig := sig) (T := ⟨S100000x10, .f32⟩) main_call2_v5).toBuf v = v := eq_of_heq (cast_heq _ _)
theorem ofBuf_main_call2_v5 (v : (⟨S100000x10, .f32⟩ : BufTy).Contents (Elt Ideal)) :
    (TRef.of (sig := sig) (T := ⟨S100000x10, .f32⟩) main_call2_v5).ofBuf v = v := eq_of_heq (cast_heq _ _)
theorem toBuf_main_call2_v6 (v : (⟨S100000x10, .f32⟩ : BufTy).Contents (Elt Ideal)) :
    (TRef.of (sig := sig) (T := ⟨S100000x10, .f32⟩) main_call2_v6).toBuf v = v := eq_of_heq (cast_heq _ _)
theorem ofBuf_main_call2_v6 (v : (⟨S100000x10, .f32⟩ : BufTy).Contents (Elt Ideal)) :
    (TRef.of (sig := sig) (T := ⟨S100000x10, .f32⟩) main_call2_v6).ofBuf v = v := eq_of_heq (cast_heq _ _)
theorem toBuf_main_call2_cst_1 (v : (⟨S_, .f32⟩ : BufTy).Contents (Elt Ideal)) :
    (TRef.of (sig := sig) (T := ⟨S_, .f32⟩) main_call2_cst_1).toBuf v = v := eq_of_heq (cast_heq _ _)
theorem ofBuf_main_call2_cst_1 (v : (⟨S_, .f32⟩ : BufTy).Contents (Elt Ideal)) :
    (TRef.of (sig := sig) (T := ⟨S_, .f32⟩) main_call2_cst_1).ofBuf v = v := eq_of_heq (cast_heq _ _)
theorem toBuf_main_call2_v7 (v : (⟨S100000, .f32⟩ : BufTy).Contents (Elt Ideal)) :
    (TRef.of (sig := sig) (T := ⟨S100000, .f32⟩) main_call2_v7).toBuf v = v := eq_of_heq (cast_heq _ _)
theorem ofBuf_main_call2_v7 (v : (⟨S100000, .f32⟩ : BufTy).Contents (Elt Ideal)) :
    (TRef.of (sig := sig) (T := ⟨S100000, .f32⟩) main_call2_v7).ofBuf v = v := eq_of_heq (cast_heq _ _)
theorem toBuf_main_call2_v8 (v : (⟨S100000x1, .f32⟩ : BufTy).Contents (Elt Ideal)) :
    (TRef.of (sig := sig) (T := ⟨S100000x1, .f32⟩) main_call2_v8).toBuf v = v := eq_of_heq (cast_heq _ _)
theorem ofBuf_main_call2_v8 (v : (⟨S100000x1, .f32⟩ : BufTy).Contents (Elt Ideal)) :
    (TRef.of (sig := sig) (T := ⟨S100000x1, .f32⟩) main_call2_v8).ofBuf v = v := eq_of_heq (cast_heq _ _)
theorem toBuf_main_call2_v9 (v : (⟨S100000x1, .f32⟩ : BufTy).Contents (Elt Ideal)) :
    (TRef.of (sig := sig) (T := ⟨S100000x1, .f32⟩) main_call2_v9).toBuf v = v := eq_of_heq (cast_heq _ _)
theorem ofBuf_main_call2_v9 (v : (⟨S100000x1, .f32⟩ : BufTy).Contents (Elt Ideal)) :
    (TRef.of (sig := sig) (T := ⟨S100000x1, .f32⟩) main_call2_v9).ofBuf v = v := eq_of_heq (cast_heq _ _)
theorem toBuf_main_call2_v10 (v : (⟨S100000x10, .f32⟩ : BufTy).Contents (Elt Ideal)) :
    (TRef.of (sig := sig) (T := ⟨S100000x10, .f32⟩) main_call2_v10).toBuf v = v := eq_of_heq (cast_heq _ _)
theorem ofBuf_main_call2_v10 (v : (⟨S100000x10, .f32⟩ : BufTy).Contents (Elt Ideal)) :
    (TRef.of (sig := sig) (T := ⟨S100000x10, .f32⟩) main_call2_v10).ofBuf v = v := eq_of_heq (cast_heq _ _)
theorem toBuf_main_v84 (v : (⟨S100000x10, .f32⟩ : BufTy).Contents (Elt Ideal)) :
    (TRef.of (sig := sig) (T := ⟨S100000x10, .f32⟩) main_v84).toBuf v = v := eq_of_heq (cast_heq _ _)
theorem ofBuf_main_v84 (v : (⟨S100000x10, .f32⟩ : BufTy).Contents (Elt Ideal)) :
    (TRef.of (sig := sig) (T := ⟨S100000x10, .f32⟩) main_v84).ofBuf v = v := eq_of_heq (cast_heq _ _)

/-- The aggregation inside the segment: the third product gathered along the sources, scaled by the weights and
    scatter-added along the targets. -/
theorem aggregated_head (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1) (hh : V (Proc.devRef .tc main_v63) = val_main_v63 (F := Ideal) x0 x1 x2 x3 x4 x5 x6) :
    after (seg3 (F := Ideal)) V (Proc.devRef .tc main_v76) = val_main_v76 (F := Ideal) x0 x1 x2 x3 x4 x5 x6 := by
  after_results_simp
  rw [hs, hd, hn, hh]
  rfl

theorem head (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal))
    (hs : V (Proc.devRef .tc main_v3) = val_main_v3 (F := Ideal) x1) (hd : V (Proc.devRef .tc main_v6) = val_main_v6 (F := Ideal) x1)
    (hn : V (Proc.devRef .tc main_v26) = val_main_v26 (F := Ideal) x1)
    (hh : V (Proc.devRef .tc main_v63) = val_main_v63 (F := Ideal) x0 x1 x2 x3 x4 x5 x6)
    (h7 : V (Proc.devRef .tc main_arg7) = x7) (h8 : V (Proc.devRef .tc main_arg8) = x8) (h9 : V (Proc.devRef .tc main_arg9) = x9) :
    after (seg3 (F := Ideal)) V (Proc.devRef .tc main_v84) = val_main_v84 (F := Ideal) x0 x1 x2 x3 x4 x5 x6 x7 x8 x9 := by
  have hA := aggregated_head V x0 x1 x2 x3 x4 x5 x6 hs hd hn hh
  simp (disch := decide) only [after_cons, after_nil, nullary_result', unary_result', binary_result', ternary_result', quaternary_result', reshape_result',
    nullary_result_ne', unary_result_ne', binary_result_ne', ternary_result_ne', quaternary_result_ne', reshape_result_ne'] at hA ⊢
  rw [hA, h7, h8, h9]
  simp only [toBuf_main_v83, ofBuf_main_v83, toBuf_main_call2_cst, ofBuf_main_call2_cst, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v84, ofBuf_main_v84]
  unfold val_main_v84 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst val_main_v83 val_main_v82 val_main_v81 val_main_v80
    val_main_v79 val_main_v78 val_main_v77
  rfl
theorem kept3_main_arg0 : after (seg3 (F := Ideal)) V (Proc.devRef .tc main_arg0) = V (Proc.devRef .tc main_arg0) := by
  after_results_simp
theorem kept3_main_arg1 : after (seg3 (F := Ideal)) V (Proc.devRef .tc main_arg1) = V (Proc.devRef .tc main_arg1) := by
  after_results_simp
theorem kept3_main_arg2 : after (seg3 (F := Ideal)) V (Proc.devRef .tc main_arg2) = V (Proc.devRef .tc main_arg2) := by
  after_results_simp
theorem kept3_main_arg3 : after (seg3 (F := Ideal)) V (Proc.devRef .tc main_arg3) = V (Proc.devRef .tc main_arg3) := by
  after_results_simp
theorem kept3_main_arg4 : after (seg3 (F := Ideal)) V (Proc.devRef .tc main_arg4) = V (Proc.devRef .tc main_arg4) := by
  after_results_simp
theorem kept3_main_arg5 : after (seg3 (F := Ideal)) V (Proc.devRef .tc main_arg5) = V (Proc.devRef .tc main_arg5) := by
  after_results_simp
theorem kept3_main_arg6 : after (seg3 (F := Ideal)) V (Proc.devRef .tc main_arg6) = V (Proc.devRef .tc main_arg6) := by
  after_results_simp
theorem kept3_main_arg7 : after (seg3 (F := Ideal)) V (Proc.devRef .tc main_arg7) = V (Proc.devRef .tc main_arg7) := by
  after_results_simp
theorem kept3_main_arg8 : after (seg3 (F := Ideal)) V (Proc.devRef .tc main_arg8) = V (Proc.devRef .tc main_arg8) := by
  after_results_simp
theorem kept3_main_arg9 : after (seg3 (F := Ideal)) V (Proc.devRef .tc main_arg9) = V (Proc.devRef .tc main_arg9) := by
  after_results_simp

end Cert.ReferenceIdeal.Staged

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefRun.lean ====
/-
  The reference's run, read back in four stages. The contents a straight line of host operations leaves are the fold of the
  operations' results over the launch contents, and a line cut in four is read back in four steps: each stage's result is the
  reading's stage function of the previous stage's, so the result array is the result function of the ten arguments; no
  stage writes an argument array.
-/
import proofs.«117442_j996432412811_1_alg».proof.Proof.RefStage0
import proofs.«117442_j996432412811_1_alg».proof.Proof.RefStage1
import proofs.«117442_j996432412811_1_alg».proof.Proof.RefStage2
import proofs.«117442_j996432412811_1_alg».proof.Proof.RefStage3
import proofs.«117442_j996432412811_1_alg».proof.Proof.LibStages

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## The four stages in a row -/

/-- The whole line read back at the result array. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal))
    (a0 : V (Proc.devRef .tc main_arg0) = x0)
    (a1 : V (Proc.devRef .tc main_arg1) = x1)
    (a2 : V (Proc.devRef .tc main_arg2) = x2)
    (a3 : V (Proc.devRef .tc main_arg3) = x3)
    (a4 : V (Proc.devRef .tc main_arg4) = x4)
    (a5 : V (Proc.devRef .tc main_arg5) = x5)
    (a6 : V (Proc.devRef .tc main_arg6) = x6)
    (a7 : V (Proc.devRef .tc main_arg7) = x7)
    (a8 : V (Proc.devRef .tc main_arg8) = x8)
    (a9 : V (Proc.devRef .tc main_arg9) = x9) :
    after (ops (F := Ideal)) V (Proc.devRef .tc main_v84) = val_main_v84 (F := Ideal) x0 x1 x2 x3 x4 x5 x6 x7 x8 x9 := by
  rw [ops_eq, after_append, after_append, after_append]
  refine head _ x0 x1 x2 x3 x4 x5 x6 x7 x8 x9 ?_ ?_ ?_ ?_ ?_ ?_ ?_
  · rw [kept2_main_v3, kept1_main_v3, sources, a1]
  · rw [kept2_main_v6, kept1_main_v6, targets, a1]
  · rw [kept2_main_v26, kept1_main_v26, weights, a1]
  · refine layer_third _ x0 x1 x2 x3 x4 x5 x6 ?_ ?_ ?_ ?_ ?_ ?_
    · rw [kept1_main_v3, sources, a1]
    · rw [kept1_main_v6, targets, a1]
    · rw [kept1_main_v26, weights, a1]
    · refine layer_second _ x0 x1 x2 x3 x4 ?_ ?_ ?_ ?_ ?_ ?_
      · rw [sources, a1]
      · rw [targets, a1]
      · rw [weights, a1]
      · rw [product_first, a0, a2]
      · rw [kept0_main_arg3, a3]
      · rw [kept0_main_arg4, a4]
    · rw [kept1_main_arg5, kept0_main_arg5, a5]
    · rw [kept1_main_arg6, kept0_main_arg6, a6]
  · rw [kept2_main_arg7, kept1_main_arg7, kept0_main_arg7, a7]
  · rw [kept2_main_arg8, kept1_main_arg8, kept0_main_arg8, a8]
  · rw [kept2_main_arg9, kept1_main_arg9, kept0_main_arg9, a9]

/-- No operation writes this argument array. -/
theorem unchanged_main_arg0 : after (ops (F := Ideal)) V (Proc.devRef .tc main_arg0) = V (Proc.devRef .tc main_arg0) := by
  rw [ops_eq, after_append, after_append, after_append, kept3_main_arg0, kept2_main_arg0, kept1_main_arg0, kept0_main_arg0]
/-- No operation writes this argument array. -/
theorem unchanged_main_arg1 : after (ops (F := Ideal)) V (Proc.devRef .tc main_arg1) = V (Proc.devRef .tc main_arg1) := by
  rw [ops_eq, after_append, after_append, after_append, kept3_main_arg1, kept2_main_arg1, kept1_main_arg1, kept0_main_arg1]
/-- No operation writes this argument array. -/
theorem unchanged_main_arg2 : after (ops (F := Ideal)) V (Proc.devRef .tc main_arg2) = V (Proc.devRef .tc main_arg2) := by
  rw [ops_eq, after_append, after_append, after_append, kept3_main_arg2, kept2_main_arg2, kept1_main_arg2, kept0_main_arg2]
/-- No operation writes this argument array. -/
theorem unchanged_main_arg3 : after (ops (F := Ideal)) V (Proc.devRef .tc main_arg3) = V (Proc.devRef .tc main_arg3) := by
  rw [ops_eq, after_append, after_append, after_append, kept3_main_arg3, kept2_main_arg3, kept1_main_arg3, kept0_main_arg3]
/-- No operation writes this argument array. -/
theorem unchanged_main_arg4 : after (ops (F := Ideal)) V (Proc.devRef .tc main_arg4) = V (Proc.devRef .tc main_arg4) := by
  rw [ops_eq, after_append, after_append, after_append, kept3_main_arg4, kept2_main_arg4, kept1_main_arg4, kept0_main_arg4]
/-- No operation writes this argument array. -/
theorem unchanged_main_arg5 : after (ops (F := Ideal)) V (Proc.devRef .tc main_arg5) = V (Proc.devRef .tc main_arg5) := by
  rw [ops_eq, after_append, after_append, after_append, kept3_main_arg5, kept2_main_arg5, kept1_main_arg5, kept0_main_arg5]
/-- No operation writes this argument array. -/
theorem unchanged_main_arg6 : after (ops (F := Ideal)) V (Proc.devRef .tc main_arg6) = V (Proc.devRef .tc main_arg6) := by
  rw [ops_eq, after_append, after_append, after_append, kept3_main_arg6, kept2_main_arg6, kept1_main_arg6, kept0_main_arg6]
/-- No operation writes this argument array. -/
theorem unchanged_main_arg7 : after (ops (F := Ideal)) V (Proc.devRef .tc main_arg7) = V (Proc.devRef .tc main_arg7) := by
  rw [ops_eq, after_append, after_append, after_append, kept3_main_arg7, kept2_main_arg7, kept1_main_arg7, kept0_main_arg7]
/-- No operation writes this argument array. -/
theorem unchanged_main_arg8 : after (ops (F := Ideal)) V (Proc.devRef .tc main_arg8) = V (Proc.devRef .tc main_arg8) := by
  rw [ops_eq, after_append, after_append, after_append, kept3_main_arg8, kept2_main_arg8, kept1_main_arg8, kept0_main_arg8]
/-- No operation writes this argument array. -/
theorem unchanged_main_arg9 : after (ops (F := Ideal)) V (Proc.devRef .tc main_arg9) = V (Proc.devRef .tc main_arg9) := by
  rw [ops_eq, after_append, after_append, after_append, kept3_main_arg9, kept2_main_arg9, kept1_main_arg9, kept0_main_arg9]

/-! ## The run -/

/-- Every weakly fair execution of the reference terminates with the result array at the result function of the ten
    argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v84).trans (result_eq (launchContents m c) _ _ _ _ _ _ _ _ _ _ rfl rfl rfl rfl rfl rfl rfl rfl rfl rfl),
      (h c main_arg0).trans (unchanged_main_arg0 (launchContents m c)),
      (h c main_arg1).trans (unchanged_main_arg1 (launchContents m c)),
      (h c main_arg2).trans (unchanged_main_arg2 (launchContents m c)),
      (h c main_arg3).trans (unchanged_main_arg3 (launchContents m c)),
      (h c main_arg4).trans (unchanged_main_arg4 (launchContents m c)),
      (h c main_arg5).trans (unchanged_main_arg5 (launchContents m c)),
      (h c main_arg6).trans (unchanged_main_arg6 (launchContents m c)),
      (h c main_arg7).trans (unchanged_main_arg7 (launchContents m c)),
      (h c main_arg8).trans (unchanged_main_arg8 (launchContents m c)),
      (h c main_arg9).trans (unchanged_main_arg9 (launchContents m c))⟩)
    (run_seq scopedRefs_eq scopedSems_eq defs main (fun _ => ops) main_eq (fun _ => ops_sub) m ρ)

end Cert.ReferenceIdeal.Staged

end
-- ==== Proof.KernelRun.lean ====
/-
  The idealized kernel's run with its result kept. The program is four grid launches among stretches of host operations;
  every weakly fair execution terminates without a fault in a state where each unscoped buffer holds what the fold of the
  segments through the launch memory leaves in it. Here that final state is read at the result array as well as at the ten
  argument arrays: the result array ends at the last launch's exit contents, the arguments as launched.
-/
import proofs.«117442_j996432412811_1_alg».proof.Proof.Gen.KernelIdeal.Frame

set_option maxRecDepth 16384

noncomputable section

namespace Cert.KernelIdeal.Result

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program ends with the result array at the last launch's exit contents and the
    argument arrays as launched. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Result

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibRowBlock.lean ====
/-
  A run of consecutive rows of a matrix product is the product of that run of rows.
  For `X` of `Mt × K` and `W` of `K × N`, entry `(r, c)` of `X · W` is `∑ k, X (r, k) · W (k, c)`: it reads only
  row `r` of `X`. So a block `Xb` of `Mb` rows of `X` times `W`, read at the block's own row `y 0`, is the whole
  product read at the row of `X` that `y 0` is. On the extended reals a change of float format is the identity, so
  rounding both factors to a narrower format on the way into the product changes nothing.
-/
import proofs.«117442_j996432412811_1_alg».proof.Proof.LibPlainDot

noncomputable section

open scoped BigOperators

namespace Cert.Proof.RowBlock

open Idealize.ShloMosaic Idealize.ShloMosaic.ValueIdx Cert.Proof.PlainDot

variable {Mb Mt K N : Nat}

/-- The product of a row block (both factors rounded to bf16, accumulated from zero) at `y` is the whole product at
    `i`, when row `y 0` of the block is row `i 0` of `X`, the right factors agree on column `y 1 = i 1`. -/
theorem matmul_block_eq_dot
    (d : DotDims ⟨2, ![Mb, K]⟩ ⟨2, ![K, N]⟩ ⟨2, ![Mb, N]⟩) (hd : d = DotDims.plain Mb K N)
    (D : DotDims ⟨2, ![Mt, K]⟩ ⟨2, ![K, N]⟩ ⟨2, ![Mt, N]⟩) (hD : D = DotDims.plain Mt K N)
    (X : FVec Ideal ⟨2, ![Mt, K]⟩ .f32) (W : FVec Ideal ⟨2, ![K, N]⟩ .f32)
    (Xb : FVec Ideal ⟨2, ![Mb, K]⟩ .f32) (Wb : FVec Ideal ⟨2, ![K, N]⟩ .f32)
    (hb : FTy.bf16.bits < FTy.f32.bits)
    (y : (⟨2, ![Mb, N]⟩ : Shape).Idx) (i : (⟨2, ![Mt, N]⟩ : Shape).Idx)
    (hX : ∀ k : Fin K, Xb (ix2 (y 0) k) = X (ix2 (i 0) k))
    (hW : ∀ k : Fin K, Wb (ix2 k (y 1)) = W (ix2 k (i 1))) :
    FloatOps.matmul d none (truncf .bf16 Xb hb) (truncf .bf16 Wb hb) (constant ⟨2, ![Mb, N]⟩ .f32 0x00000000#32) y
      = FloatOps.dotGeneral D none .single X W i := by
  subst hd hD
  rw [matmul_plain_zero, dotGeneral_plain]
  refine Finset.sum_congr rfl fun k _ => ?_
  rw [truncf_apply, truncf_apply, hX k, hW k]

end Cert.Proof.RowBlock

end
-- ==== Proof.LibRowBias.lean ====
/-
  A bias row added to every row of a matrix, and the rectifier, in two spellings, on the extended reals.

  `biasRows A b` is the matrix `A` with the row `b` added to each of its rows: entry `(r, q)` is `A (r, q) + b q`.
  `reluRows A` is the entrywise maximum with the value of the zero word, `max (A (r, q)) 0`. `rowOf B` reads a one-row
  matrix `B : [1, k]` as its row `[k]`.

  * An array program adds the bias by broadcasting the row twice, `[k] → [1,k] → [n,k]`, and adding; it rectifies by a
    maximum with the scalar zero broadcast to the whole shape. As whole arrays these are `biasRows` and `reluRows`
    (`host_bias`, `host_relu`).
  * A vector unit holds the bias as a one-row block `[1, k]`; it views both operands at their own shapes (identity
    views), spreads the row over the `a` rows of the block and adds; it rectifies by a maximum with a splat of the scalar
    zero. Read at `(p, q)` these are `x0 (p, q) + x1 (0, q)` and its maximum with zero (`vpu_bias_at`,
    `vpu_relu_bias_at`); with a first operand used as it is, without the view, `vpu_add_row_at`.
  * A row viewed `[k] → [1,k]` and read back as a row is the row (`rowOf_reshape`).

  Every operation is exact on the extended reals, so nothing needs to be finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Proof.RowBias

open Idealize.ShloMosaic Idealize.ShloMosaic.ValueIdx

/-! ## The plain functions -/

/-- The matrix `A` with the row `b` added to each row. -/
def biasRows {n k : ℕ} (A : FVec Ideal ⟨2, ![n, k]⟩ .f32) (b : FVec Ideal ⟨1, ![k]⟩ .f32) : FVec Ideal ⟨2, ![n, k]⟩ .f32 :=
  fun i => A i + b (ix1 (i 1))

/-- The entrywise maximum with the value of the zero word. -/
def reluRows {n k : ℕ} (A : FVec Ideal ⟨2, ![n, k]⟩ .f32) : FVec Ideal ⟨2, ![n, k]⟩ .f32 :=
  fun i => max (A i) (Ideal.ofBits .f32 0x00000000#32)

/-- A one-row matrix read as its row. -/
def rowOf {k : ℕ} (B : FVec Ideal ⟨2, ![1, k]⟩ .f32) : FVec Ideal ⟨1, ![k]⟩ .f32 :=
  fun j => B (ix2 (0 : Fin 1) (j 0))

/-- `biasRows` at `(r, q)`. -/
theorem biasRows_apply {n k : ℕ} (A : FVec Ideal ⟨2, ![n, k]⟩ .f32) (b : FVec Ideal ⟨1, ![k]⟩ .f32) (r : Fin n) (q : Fin k) :
    biasRows A b (ix2 r q) = A (ix2 r q) + b (ix1 q) := rfl

/-- `reluRows` at `(r, q)`. -/
theorem reluRows_apply {n k : ℕ} (A : FVec Ideal ⟨2, ![n, k]⟩ .f32) (r : Fin n) (q : Fin k) :
    reluRows A (ix2 r q) = max (A (ix2 r q)) (Ideal.ofBits .f32 0x00000000#32) := rfl

/-- `rowOf` at `q`. -/
theorem rowOf_apply {k : ℕ} (B : FVec Ideal ⟨2, ![1, k]⟩ .f32) (q : Fin k) : rowOf B (ix1 q) = B (ix2 (0 : Fin 1) q) := rfl

/-! ## Broadcasts of a row read at an index -/

section Layout
variable {α : Type}

/-- A broadcast `[k] → [1,k]`: at `(u, q)` the operand at `q`. -/
theorem bcast_k_1k_apply {k : ℕ} (x : (⟨1, ![k]⟩ : Shape).Idx → α)
    (h : (⟨1, ![k]⟩ : Shape).BroadcastsInDim ⟨2, ![1, k]⟩ (![1] : Fin 1 → Fin (⟨2, ![1, k]⟩ : Shape).rank))
    (u : Fin 1) (q : Fin k) : broadcastInDim ⟨2, ![1, k]⟩ ![1] h x (ix2 u q) = x (ix1 q) := by
  refine broadcastInDim_apply _ h x (ix2 u q) (ix1 q) fun ax => ?_
  match ax with
  | ⟨0, _⟩ =>
    show q.val = if k = 1 then 0 else q.val
    split
    · have := q.isLt; omega
    · rfl

/-- A broadcast `[1,k] → [n,k]`: at `(r, q)` the operand at `(0, q)`. -/
theorem bcast_1k_nk_apply {n k : ℕ} (v : (⟨2, ![1, k]⟩ : Shape).Idx → α)
    (h : (⟨2, ![1, k]⟩ : Shape).BroadcastsInDim ⟨2, ![n, k]⟩ (![0, 1] : Fin 2 → Fin (⟨2, ![n, k]⟩ : Shape).rank))
    (r : Fin n) (q : Fin k) : broadcastInDim ⟨2, ![n, k]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if k = 1 then 0 else q.val
    split
    · have := q.isLt; omega
    · rfl

end Layout

/-! ## The array program's spellings -/

/-- The array program's bias addition at `(r, q)`. -/
theorem host_bias_at {n k : ℕ} (A : FVec Ideal ⟨2, ![n, k]⟩ .f32) (b : FVec Ideal ⟨1, ![k]⟩ .f32)
    (h1 : (⟨1, ![k]⟩ : Shape).BroadcastsInDim ⟨2, ![1, k]⟩ (![1] : Fin 1 → Fin (⟨2, ![1, k]⟩ : Shape).rank))
    (h2 : (⟨2, ![1, k]⟩ : Shape).BroadcastsInDim ⟨2, ![n, k]⟩ (![0, 1] : Fin 2 → Fin (⟨2, ![n, k]⟩ : Shape).rank))
    (r : Fin n) (q : Fin k) :
    addf A (broadcastInDim ⟨2, ![n, k]⟩ ![0, 1] h2 (broadcastInDim ⟨2, ![1, k]⟩ ![1] h1 b)) (ix2 r q)
      = A (ix2 r q) + b (ix1 q) := by
  refine (addf_apply A _ (ix2 r q)).trans (congrArg (A (ix2 r q) + ·) ?_)
  exact (bcast_1k_nk_apply _ h2 r q).trans (bcast_k_1k_apply b h1 0 q)

/-- The array program's bias addition — the row broadcast `[k] → [1,k] → [n,k]` and added — is `biasRows`. -/
theorem host_bias {n k : ℕ} (A : FVec Ideal ⟨2, ![n, k]⟩ .f32) (b : FVec Ideal ⟨1, ![k]⟩ .f32)
    (h1 : (⟨1, ![k]⟩ : Shape).BroadcastsInDim ⟨2, ![1, k]⟩ (![1] : Fin 1 → Fin (⟨2, ![1, k]⟩ : Shape).rank))
    (h2 : (⟨2, ![1, k]⟩ : Shape).BroadcastsInDim ⟨2, ![n, k]⟩ (![0, 1] : Fin 2 → Fin (⟨2, ![n, k]⟩ : Shape).rank)) :
    addf A (broadcastInDim ⟨2, ![n, k]⟩ ![0, 1] h2 (broadcastInDim ⟨2, ![1, k]⟩ ![1] h1 b)) = biasRows A b := by
  funext i
  rw [eq_ix2 i]
  exact (host_bias_at A b h1 h2 (i 0) (i 1)).trans (biasRows_apply A b (i 0) (i 1)).symm

/-- The array program's rectifier — the maximum with the scalar zero broadcast to the whole shape — is `reluRows`. -/
theorem host_relu {n k : ℕ} (X : FVec Ideal ⟨2, ![n, k]⟩ .f32)
    (h0 : (⟨0, ![]⟩ : Shape).BroadcastsInDim ⟨2, ![n, k]⟩ (![] : Fin 0 → Fin (⟨2, ![n, k]⟩ : Shape).rank)) :
    maximumf X (broadcastInDim ⟨2, ![n, k]⟩ ![] h0 (constant (F := Ideal) ⟨0, ![]⟩ .f32 0x00000000#32)) = reluRows X := by
  funext i
  refine (maximumf_apply X _ i).trans (congrArg (max (X i)) ?_)
  exact (broadcastInDim_scalar_apply h0 _ i).trans (constant_apply _ _)

/-! ## The vector unit's spellings -/

/-- A one-row block spread over the rows of a block and added to a matrix that is used as it is, at `(p, q)`. -/
theorem vpu_add_row_at {a k : ℕ} (M : FVec Ideal ⟨2, ![a, k]⟩ .f32) (x1 : FVec Ideal ⟨2, ![1, k]⟩ .f32)
    (hs1 : (⟨2, ![1, k]⟩ : Shape).ShapeCasts ⟨2, ![1, k]⟩) (hb : (⟨2, ![1, k]⟩ : Shape).Broadcasts ⟨2, ![a, k]⟩)
    (p : Fin a) (q : Fin k) :
    addf M (broadcastTo ⟨2, ![a, k]⟩ (shapeCast ⟨2, ![1, k]⟩ x1 hs1) hb) (ix2 p q) = M (ix2 p q) + x1 (ix2 (0 : Fin 1) q) := by
  refine (addf_apply M _ (ix2 p q)).trans (congrArg (M (ix2 p q) + ·) ?_)
  exact (broadcastTo_1b_ab_apply _ hb p q).trans (congrFun (shapeCast_self x1 hs1) (ix2 (0 : Fin 1) q))

/-- The vector unit's bias addition at `(p, q)`: identity views of both operands, the one-row block spread over the rows,
    an addition. -/
theorem vpu_bias_at {a k : ℕ} (x0 : FVec Ideal ⟨2, ![a, k]⟩ .f32) (x1 : FVec Ideal ⟨2, ![1, k]⟩ .f32)
    (hs0 : (⟨2, ![a, k]⟩ : Shape).ShapeCasts ⟨2, ![a, k]⟩) (hs1 : (⟨2, ![1, k]⟩ : Shape).ShapeCasts ⟨2, ![1, k]⟩)
    (hb : (⟨2, ![1, k]⟩ : Shape).Broadcasts ⟨2, ![a, k]⟩) (p : Fin a) (q : Fin k) :
    addf (shapeCast ⟨2, ![a, k]⟩ x0 hs0) (broadcastTo ⟨2, ![a, k]⟩ (shapeCast ⟨2, ![1, k]⟩ x1 hs1) hb) (ix2 p q)
      = x0 (ix2 p q) + x1 (ix2 (0 : Fin 1) q) := by
  refine (addf_apply _ _ (ix2 p q)).trans ?_
  refine congrArg₂ (· + ·) (congrFun (shapeCast_self x0 hs0) (ix2 p q)) ?_
  exact (broadcastTo_1b_ab_apply _ hb p q).trans (congrFun (shapeCast_self x1 hs1) (ix2 (0 : Fin 1) q))

/-- The vector unit's rectified bias addition at `(p, q)`: the maximum of the sum with a splat of the scalar zero. -/
theorem vpu_relu_bias_at {a k : ℕ} (x0 : FVec Ideal ⟨2, ![a, k]⟩ .f32) (x1 : FVec Ideal ⟨2, ![1, k]⟩ .f32)
    (hs0 : (⟨2, ![a, k]⟩ : Shape).ShapeCasts ⟨2, ![a, k]⟩) (hs1 : (⟨2, ![1, k]⟩ : Shape).ShapeCasts ⟨2, ![1, k]⟩)
    (hb : (⟨2, ![1, k]⟩ : Shape).Broadcasts ⟨2, ![a, k]⟩) (p : Fin a) (q : Fin k) :
    maximumf (addf (shapeCast ⟨2, ![a, k]⟩ x0 hs0) (broadcastTo ⟨2, ![a, k]⟩ (shapeCast ⟨2, ![1, k]⟩ x1 hs1) hb))
        (broadcast ⟨2, ![a, k]⟩ (Scalar.ofBits (F := Ideal) .f32 0x00000000#32)) (ix2 p q)
      = max (x0 (ix2 p q) + x1 (ix2 (0 : Fin 1) q)) (Ideal.ofBits .f32 0x00000000#32) := by
  refine (maximumf_apply _ _ (ix2 p q)).trans ?_
  exact congrArg (max · (Ideal.ofBits .f32 0x00000000#32)) (vpu_bias_at x0 x1 hs0 hs1 hb p q)

/-! ## A row viewed as a one-row matrix -/

/-- A row viewed `[k] → [1,k]` and read back as a row is the row. -/
theorem rowOf_reshape {k : ℕ} (b : FVec Ideal ⟨1, ![k]⟩ .f32) (h : (⟨1, ![k]⟩ : Shape).ShapeCasts ⟨2, ![1, k]⟩) :
    rowOf (shapeCast ⟨2, ![1, k]⟩ b h) = b := by
  funext j
  rw [eq_ix1 j]
  exact (rowOf_apply _ (j 0)).trans (shapeCast_a_1a_apply b h 0 (j 0))

end Cert.Proof.RowBias

end
-- ==== Proof.LibLogSoftmaxRow.lean ====
/-
  A row-wise log-softmax in two spellings, on the extended reals.

  For a row `x₀, …, x_{c-1}` of extended reals put `m = max_k x_k` (the fold of `max` from `-∞`) and
  `s = ∑_k exp (x_k - m)`; the row's log-softmax at lane `j` is `(x_j - m) - log s`.

  * A vector unit computes it on a block of `a` rows and `c` lanes: a lane maximum accumulated from the word of `-∞`,
    viewed `[a] → [a,1]` and spread `[a,1] → [a,c]`, a subtraction, the exponential, a lane sum accumulated from the
    zero word, the same view, the logarithm, the same spread, a subtraction (`vpuLogSoftmax`).
  * An array program computes it on a whole array of `n` rows and `c` columns: a reduction with `max` from the constant
    `-∞`, then one more maximum with a broadcast constant `-∞`, two broadcasts `[n] → [n,1] → [n,c]`, a subtraction,
    the exponential, a reduction with `+` from the constant `0`, a broadcast `[n] → [n,1]`, the logarithm, a broadcast
    `[n,1] → [n,c]`, a subtraction (`hostLogSoftmax`).

  If row `p` of the block equals row `r` of the array entry by entry, the two results agree at `(p, j)` and `(r, j)`
  (`vpu_eq_host`). Nothing needs to be finite: every operation is exact on the extended reals, the extra maximum with
  `-∞` is the identity (`max ⊥ x = x`), the two maxima are the same fold of `max` from `⊥` over the `c` lanes, and the
  two sums are the same sum over the `c` lanes, the array program's with a leading `0 +`. Each side is first read at an
  index in closed form (`vpuLogSoftmax_apply`, `hostLogSoftmax_apply`), one operation per lemma.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Proof.LogSoftmaxRow

open Idealize.ShloMosaic Idealize.ShloMosaic.ValueIdx

/-! ## The two spellings -/

/-- The vector unit's spelling: lane maximum, view, spread, subtract, exponential, lane sum, view, logarithm, spread,
    subtract. -/
def vpuLogSoftmax {a c : ℕ} (L : FVec Ideal ⟨2, ![a, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩) : FVec Ideal ⟨2, ![a, c]⟩ .f32 :=
  have v14 : FVec Ideal ⟨1, ![a]⟩ .f32 := multiReduction .maximumf [1] ⟨1, ![a]⟩ L 0xFF800000#32 hred (.inl rfl) rfl
  have v15 : FVec Ideal ⟨2, ![a, 1]⟩ .f32 := shapeCast ⟨2, ![a, 1]⟩ v14 hsc
  have v16 : FVec Ideal ⟨2, ![a, c]⟩ .f32 := broadcastTo ⟨2, ![a, c]⟩ v15 hbc
  have v17 : FVec Ideal ⟨2, ![a, c]⟩ .f32 := subf L v16
  have v18 : FVec Ideal ⟨2, ![a, c]⟩ .f32 := exp v17
  have v19 : FVec Ideal ⟨1, ![a]⟩ .f32 := multiReduction .add [1] ⟨1, ![a]⟩ v18 0x00000000#32 hred (.inl rfl) rfl
  have v20 : FVec Ideal ⟨2, ![a, 1]⟩ .f32 := shapeCast ⟨2, ![a, 1]⟩ v19 hsc
  have v21 : FVec Ideal ⟨2, ![a, 1]⟩ .f32 := log v20
  have v22 : FVec Ideal ⟨2, ![a, c]⟩ .f32 := broadcastTo ⟨2, ![a, c]⟩ v21 hbc
  subf v17 v22

/-- The array program's spelling: reduce with `max`, one more maximum with a broadcast `-∞`, two broadcasts, subtract,
    exponential, reduce with `+`, broadcast, logarithm, broadcast, subtract. -/
def hostLogSoftmax {n c : ℕ} (H : FVec Ideal ⟨2, ![n, c]⟩ .f32)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank)) :
    FVec Ideal ⟨2, ![n, c]⟩ .f32 :=
  have c0 : FVec Ideal ⟨1, ![n]⟩ .f32 :=
    Host.reduce FloatOps.maximumf H (constant (F := Ideal) ⟨0, ![]⟩ .f32 0xFF800000#32) hredTo h0
  have c1 : FVec Ideal ⟨1, ![n]⟩ .f32 :=
    broadcastInDim ⟨1, ![n]⟩ ![] hb0 (constant (F := Ideal) ⟨0, ![]⟩ .f32 0xFF800000#32)
  have c2 : FVec Ideal ⟨1, ![n]⟩ .f32 := maximumf c1 c0
  have c3 : FVec Ideal ⟨2, ![n, 1]⟩ .f32 := broadcastInDim ⟨2, ![n, 1]⟩ ![0] hb1 c2
  have c4 : FVec Ideal ⟨2, ![n, c]⟩ .f32 := broadcastInDim ⟨2, ![n, c]⟩ ![0, 1] hb2 c3
  have c5 : FVec Ideal ⟨2, ![n, c]⟩ .f32 := subf H c4
  have c6 : FVec Ideal ⟨2, ![n, c]⟩ .f32 := Host.exp c5
  have c7 : FVec Ideal ⟨1, ![n]⟩ .f32 :=
    Host.reduceAdd c6 (constant (F := Ideal) ⟨0, ![]⟩ .f32 0x00000000#32) hredTo h0
  have c8 : FVec Ideal ⟨2, ![n, 1]⟩ .f32 := broadcastInDim ⟨2, ![n, 1]⟩ ![0] hb1 c7
  have c9 : FVec Ideal ⟨2, ![n, 1]⟩ .f32 := Host.log c8
  have c10 : FVec Ideal ⟨2, ![n, c]⟩ .f32 := broadcastInDim ⟨2, ![n, c]⟩ ![0, 1] hb2 c9
  subf c5 c10

/-! ## A row's log-softmax on the extended reals -/

/-- The maximum of a row: the fold of `max` from `-∞` over its `c` entries. -/
def rowMax {c : ℕ} (x : Fin c → EReal) : EReal := (Finset.univ : Finset (Fin c)).fold max ⊥ x

/-- The log-softmax of a row at lane `j`: `(x_j - m) - log (∑_k exp (x_k - m))` with `m` the row's maximum. -/
def rowLogSoftmax {c : ℕ} (x : Fin c → EReal) (j : Fin c) : EReal :=
  (x j - rowMax x) - Ideal.log (∑ k : Fin c, Ideal.exp (x k - rowMax x))

/-- The word `0xFF800000` denotes `-∞`. -/
theorem ofBits_neg_inf_f32 : Ideal.ofBits .f32 0xFF800000#32 = ⊥ := by simp [Ideal.ofBits, Ideal.ieee]

/-! ## Layout operations read at an index -/

section Layout
variable {α : Type}

/-- A view `[a] → [a,1]`: at `(p, u)` the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A spread `[a,1] → [a,c]` over the lanes: at `(p, k)` the operand at `(p, 0)`. -/
theorem broadcastTo_a1_ac_apply {a c : ℕ} (v : (⟨2, ![a, 1]⟩ : Shape).Idx → α)
    (h : (⟨2, ![a, 1]⟩ : Shape).Broadcasts ⟨2, ![a, c]⟩) (p : Fin a) (k : Fin c) :
    broadcastTo ⟨2, ![a, c]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A broadcast `[n] → [n,1]`: at `(r, u)` the operand at `r`. -/
theorem bcast_n_n1_apply {n : ℕ} (x : (⟨1, ![n]⟩ : Shape).Idx → α)
    (h : (⟨1, ![n]⟩ : Shape).BroadcastsInDim ⟨2, ![n, 1]⟩ (![0] : Fin 1 → Fin (⟨2, ![n, 1]⟩ : Shape).rank))
    (r : Fin n) (u : Fin 1) : broadcastInDim ⟨2, ![n, 1]⟩ ![0] h x (ix2 r u) = x (ix1 r) := by
  refine broadcastInDim_apply _ h x (ix2 r u) (ix1 r) fun ax => ?_
  match ax with
  | ⟨0, _⟩ =>
    show r.val = if n = 1 then 0 else r.val
    split
    · have := r.isLt; omega
    · rfl

/-- A broadcast `[n,1] → [n,c]`: at `(r, k)` the operand at `(r, 0)`. -/
theorem bcast_n1_nc_apply {n c : ℕ} (v : (⟨2, ![n, 1]⟩ : Shape).Idx → α)
    (h : (⟨2, ![n, 1]⟩ : Shape).BroadcastsInDim ⟨2, ![n, c]⟩ (![0, 1] : Fin 2 → Fin (⟨2, ![n, c]⟩ : Shape).rank))
    (r : Fin n) (k : Fin c) : broadcastInDim ⟨2, ![n, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if n = 1 then 0 else r.val
    split
    · have := r.isLt; omega
    · rfl
  | ⟨1, _⟩ => rfl

end Layout

/-- Over the row index `r`, the source index whose lane coordinate is `k` is `(r, k)`. -/
theorem lift_rows {a c : ℕ} (h : (⟨2, ![a, c]⟩ : Shape).Reduces [1] ⟨1, ![a]⟩) (r : Fin a) (k : Fin c) :
    h.lift (ix1 r) k = ix2 r k := by
  funext d
  refine Fin.ext ?_
  match d with
  | ⟨0, _⟩ => rfl
  | ⟨1, _⟩ => rfl

/-! ## The reductions read at a row -/

/-- A lane maximum accumulated from the word of `-∞`, at row `p`: the row's maximum. -/
theorem laneMax_apply {a c : ℕ} (x : FVec Ideal ⟨2, ![a, c]⟩ .f32) (h : (⟨2, ![a, c]⟩ : Shape).Reduces [1] ⟨1, ![a]⟩)
    (p : Fin a) :
    multiReduction (F := Ideal) .maximumf [1] ⟨1, ![a]⟩ x 0xFF800000#32 h (.inl rfl) rfl (ix1 p)
      = rowMax fun k => x (ix2 p k) := by
  refine (Ideal.multiReduction_maximumf_single x _ h _ _ (ix1 p)).trans ?_
  have e : (x ∘ h.lift (ix1 p)) = fun k : Fin c => x (ix2 p k) := funext fun k => congrArg x (lift_rows h p k)
  exact (congrArg (fun b => (Finset.univ : Finset (Fin c)).fold max b (x ∘ h.lift (ix1 p))) ofBits_neg_inf_f32).trans
    (congrArg (fun f => (Finset.univ : Finset (Fin c)).fold max ⊥ f) e)

/-- A lane sum accumulated from the zero word, at row `p`: the sum of the row's entries. -/
theorem laneSum_apply {a c : ℕ} (x : FVec Ideal ⟨2, ![a, c]⟩ .f32) (h : (⟨2, ![a, c]⟩ : Shape).Reduces [1] ⟨1, ![a]⟩)
    (p : Fin a) :
    multiReduction (F := Ideal) .add [1] ⟨1, ![a]⟩ x 0x00000000#32 h (.inl rfl) rfl (ix1 p) = ∑ k : Fin c, x (ix2 p k) := by
  refine (Ideal.multiReduction_add_single x _ h _ _ (ix1 p)).trans ?_
  exact Finset.sum_congr rfl fun k _ => congrArg x (lift_rows h p k)

/-- A reduction over the columns removes an axis of a rank-2 shape in the vector unit's sense as well. -/
theorem reduces_of_reducesTo {n c : ℕ} (h' : (⟨2, ![n, c]⟩ : Shape).ReducesTo [1] ⟨1, ![n]⟩) :
    (⟨2, ![n, c]⟩ : Shape).Reduces [1] ⟨1, ![n]⟩ := ⟨h'.1, Nat.one_pos, h'.2⟩

/-- An array reduction with `max` over the columns from the constant `-∞`, at row `r`: the row's maximum. -/
theorem hostMax_apply {n c : ℕ} (x : FVec Ideal ⟨2, ![n, c]⟩ .f32) (h' : (⟨2, ![n, c]⟩ : Shape).ReducesTo [1] ⟨1, ![n]⟩)
    (h0 : 0 < (⟨0, ![]⟩ : Shape).numel) (r : Fin n) :
    Host.reduce FloatOps.maximumf x (constant (F := Ideal) ⟨0, ![]⟩ .f32 0xFF800000#32) h' h0 (ix1 r)
      = rowMax fun k => x (ix2 r k) := by
  have h := reduces_of_reducesTo h'
  refine (Host.reduce_eq_fold_single FloatOps.maximumf x _ h' h h0 (ix1 r)).trans ?_
  have e : (x ∘ h.lift (ix1 r)) = fun k : Fin c => x (ix2 r k) := funext fun k => congrArg x (lift_rows h r k)
  exact (congrArg (fun b => (Finset.univ : Finset (Fin c)).fold max b (x ∘ h.lift (ix1 r))) ofBits_neg_inf_f32).trans
    (congrArg (fun f => (Finset.univ : Finset (Fin c)).fold max ⊥ f) e)

/-- An array reduction with `+` over the columns from the constant `0`, at row `r`: the sum of the row's entries. -/
theorem hostSum_apply {n c : ℕ} (x : FVec Ideal ⟨2, ![n, c]⟩ .f32) (h' : (⟨2, ![n, c]⟩ : Shape).ReducesTo [1] ⟨1, ![n]⟩)
    (h0 : 0 < (⟨0, ![]⟩ : Shape).numel) (r : Fin n) :
    Host.reduceAdd x (constant (F := Ideal) ⟨0, ![]⟩ .f32 0x00000000#32) h' h0 (ix1 r) = ∑ k : Fin c, x (ix2 r k) := by
  have h := reduces_of_reducesTo h'
  refine (hostReduceAdd_apply x _ h' h0 (ix1 r)).trans ?_
  refine (Ideal.hostReduceAdd_single h' h x _ (ix1 r)).trans ?_
  refine (congrArg (· + ∑ k : Fin c, x (h.lift (ix1 r) k)) Ideal.ofBits_zero_f32).trans ?_
  refine (zero_add _).trans ?_
  exact Finset.sum_congr rfl fun k _ => congrArg x (lift_rows h r k)

/-! ## The vector unit's spelling read at an index -/

/-- The block with each row's maximum subtracted, as the vector unit spells it. -/
def vpuShift {a c : ℕ} (L : FVec Ideal ⟨2, ![a, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩) : FVec Ideal ⟨2, ![a, c]⟩ .f32 :=
  subf L (broadcastTo ⟨2, ![a, c]⟩
    (shapeCast ⟨2, ![a, 1]⟩ (multiReduction .maximumf [1] ⟨1, ![a]⟩ L 0xFF800000#32 hred (.inl rfl) rfl) hsc) hbc)

/-- At `(p, k)` it is the entry minus the row's maximum. -/
theorem vpuShift_apply {a c : ℕ} (L : FVec Ideal ⟨2, ![a, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩) (p : Fin a) (k : Fin c) :
    vpuShift L hred hsc hbc (ix2 p k) = L (ix2 p k) - rowMax fun k => L (ix2 p k) := by
  refine (subf_apply L _ (ix2 p k)).trans (congrArg (L (ix2 p k) - ·) ?_)
  refine (broadcastTo_a1_ac_apply _ hbc p k).trans ?_
  refine (shapeCast_a_a1_apply _ hsc p 0).trans ?_
  exact laneMax_apply L hred p

/-- The vector unit's spelling is: the shifted block, minus the spread logarithm of its exponentials' lane sums. -/
theorem vpuLogSoftmax_eq {a c : ℕ} (L : FVec Ideal ⟨2, ![a, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩) :
    vpuLogSoftmax L hred hsc hbc
      = subf (vpuShift L hred hsc hbc) (broadcastTo ⟨2, ![a, c]⟩ (log (shapeCast ⟨2, ![a, 1]⟩
          (multiReduction .add [1] ⟨1, ![a]⟩ (exp (vpuShift L hred hsc hbc)) 0x00000000#32 hred (.inl rfl) rfl) hsc)) hbc) :=
  rfl

/-- The vector unit's spelling at `(p, j)` is the log-softmax of row `p` at lane `j`. -/
theorem vpuLogSoftmax_apply {a c : ℕ} (L : FVec Ideal ⟨2, ![a, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩) (p : Fin a) (j : Fin c) :
    vpuLogSoftmax L hred hsc hbc (ix2 p j) = rowLogSoftmax (fun k => L (ix2 p k)) j := by
  rw [vpuLogSoftmax_eq]
  refine (subf_apply _ _ (ix2 p j)).trans ?_
  refine congrArg₂ (· - ·) (vpuShift_apply L hred hsc hbc p j) ?_
  refine (broadcastTo_a1_ac_apply _ hbc p j).trans ?_
  refine congrArg Ideal.log ?_
  refine (shapeCast_a_a1_apply _ hsc p 0).trans ?_
  refine (laneSum_apply _ hred p).trans ?_
  exact Finset.sum_congr rfl fun k _ => congrArg Ideal.exp (vpuShift_apply L hred hsc hbc p k)

/-! ## The array program's spelling read at an index -/

/-- The array with each row's maximum subtracted, as the array program spells it: the reduction with `max`, one more
    maximum with a broadcast `-∞`, two broadcasts, a subtraction. -/
def hostShift {n c : ℕ} (H : FVec Ideal ⟨2, ![n, c]⟩ .f32)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank)) :
    FVec Ideal ⟨2, ![n, c]⟩ .f32 :=
  subf H (broadcastInDim ⟨2, ![n, c]⟩ ![0, 1] hb2 (broadcastInDim ⟨2, ![n, 1]⟩ ![0] hb1
    (maximumf (broadcastInDim ⟨1, ![n]⟩ ![] hb0 (constant (F := Ideal) ⟨0, ![]⟩ .f32 0xFF800000#32))
      (Host.reduce FloatOps.maximumf H (constant (F := Ideal) ⟨0, ![]⟩ .f32 0xFF800000#32) hredTo h0))))

/-- At `(r, k)` it is the entry minus the row's maximum: the maximum with `-∞` changes nothing. -/
theorem hostShift_apply {n c : ℕ} (H : FVec Ideal ⟨2, ![n, c]⟩ .f32)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank))
    (r : Fin n) (k : Fin c) :
    hostShift H hredTo h0 hb0 hb1 hb2 (ix2 r k) = H (ix2 r k) - rowMax fun k => H (ix2 r k) := by
  refine (subf_apply H _ (ix2 r k)).trans (congrArg (H (ix2 r k) - ·) ?_)
  refine (bcast_n1_nc_apply _ hb2 r k).trans ?_
  refine (bcast_n_n1_apply _ hb1 r 0).trans ?_
  refine (maximumf_apply _ _ (ix1 r)).trans ?_
  refine (congrArg₂ max (ofBits_neg_inf_f32 : _ = (⊥ : EReal)) (hostMax_apply H hredTo h0 r)).trans ?_
  exact max_bot_left _

/-- The array program's spelling is: the shifted array, minus the broadcast logarithm of its exponentials' row sums. -/
theorem hostLogSoftmax_eq {n c : ℕ} (H : FVec Ideal ⟨2, ![n, c]⟩ .f32)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank)) :
    hostLogSoftmax H hredTo h0 hb0 hb1 hb2
      = subf (hostShift H hredTo h0 hb0 hb1 hb2) (broadcastInDim ⟨2, ![n, c]⟩ ![0, 1] hb2 (Host.log
          (broadcastInDim ⟨2, ![n, 1]⟩ ![0] hb1 (Host.reduceAdd (Host.exp (hostShift H hredTo h0 hb0 hb1 hb2))
            (constant (F := Ideal) ⟨0, ![]⟩ .f32 0x00000000#32) hredTo h0)))) :=
  rfl

/-- The array program's spelling at `(r, j)` is the log-softmax of row `r` at column `j`. -/
theorem hostLogSoftmax_apply {n c : ℕ} (H : FVec Ideal ⟨2, ![n, c]⟩ .f32)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank))
    (r : Fin n) (j : Fin c) :
    hostLogSoftmax H hredTo h0 hb0 hb1 hb2 (ix2 r j) = rowLogSoftmax (fun k => H (ix2 r k)) j := by
  rw [hostLogSoftmax_eq]
  refine (subf_apply _ _ (ix2 r j)).trans ?_
  refine congrArg₂ (· - ·) (hostShift_apply H hredTo h0 hb0 hb1 hb2 r j) ?_
  refine (bcast_n1_nc_apply _ hb2 r j).trans ?_
  refine congrArg Ideal.log ?_
  refine (bcast_n_n1_apply _ hb1 r 0).trans ?_
  refine (hostSum_apply _ hredTo h0 r).trans ?_
  exact Finset.sum_congr rfl fun k _ => congrArg Ideal.exp (hostShift_apply H hredTo h0 hb0 hb1 hb2 r k)

/-! ## The two spellings agree on equal rows -/

/-- If row `p` of the block equals row `r` of the array entry by entry, the vector unit's log-softmax at `(p, j)` is the
    array program's at `(r, j)`: both are the log-softmax of that one row. -/
theorem vpu_eq_host {a n c : ℕ} (L : FVec Ideal ⟨2, ![a, c]⟩ .f32) (H : FVec Ideal ⟨2, ![n, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank))
    (p : Fin a) (r : Fin n) (hrow : ∀ j : Fin c, L (ix2 p j) = H (ix2 r j)) (j : Fin c) :
    vpuLogSoftmax L hred hsc hbc (ix2 p j) = hostLogSoftmax H hredTo h0 hb0 hb1 hb2 (ix2 r j) := by
  rw [vpuLogSoftmax_apply, hostLogSoftmax_apply]
  exact congrArg (fun x => rowLogSoftmax x j) (funext hrow)

end Cert.Proof.LogSoftmaxRow

end
-- ==== Proof.Whole.lean ====
/-
  The dense steps as functions of whole arrays, with the arrays typed by their index sets: a product of the 100000-row
  feature array with a 128-column or a 10-column matrix.
-/
import proofs.«117442_j996432412811_1_alg».proof.Proof.Gen.KernelIdeal.Frame
import proofs.«117442_j996432412811_1_alg».proof.Proof.LibRowBias
import proofs.«117442_j996432412811_1_alg».proof.Proof.LibLogSoftmaxRow

noncomputable section

namespace Cert.KernelIdeal.Result

open Cert.KernelIdeal Idealize.ShloMosaic Idealize.ShloMosaic.TcCoe Cert.Proof.RowBias Cert.Proof.LogSoftmaxRow

/-- The 100000×128 by 128×128 product. -/
abbrev wholeProduct (X : S100000x128.Idx → Elt Ideal .f32) (W : S128x128.Idx → Elt Ideal .f32) :
    S100000x128.Idx → Elt Ideal .f32 :=
  Host.dotGeneral (F := Ideal) (φ₁ := .f32) (φ₂ := .f32) (DotDims.plain 100000 128 128) none X W

/-- A layer's product: the features with the bias row added and rectified, times the weights. -/
abbrev layerProduct (A : S100000x128.Idx → Elt Ideal .f32) (B : S1x128.Idx → Elt Ideal .f32)
    (W : S128x128.Idx → Elt Ideal .f32) : S100000x128.Idx → Elt Ideal .f32 :=
  wholeProduct (reluRows (biasRows A (rowOf B))) W

/-- The logits: the features with the bias row added, times the classifier matrix, plus the classifier's bias row. -/
abbrev logitsOf (A : S100000x128.Idx → Elt Ideal .f32) (B : S1x128.Idx → Elt Ideal .f32)
    (W : S128x10.Idx → Elt Ideal .f32) (BL : S1x10.Idx → Elt Ideal .f32) : S100000x10.Idx → Elt Ideal .f32 :=
  biasRows (Host.dotGeneral (F := Ideal) (φ₁ := .f32) (φ₂ := .f32) (DotDims.plain 100000 128 10) none (biasRows A (rowOf B)) W) (rowOf BL)

/-- The result: the row-wise log-softmax of the logits, in the host's spelling. -/
abbrev resultOf (A : S100000x128.Idx → Elt Ideal .f32) (B : S1x128.Idx → Elt Ideal .f32)
    (W : S128x10.Idx → Elt Ideal .f32) (BL : S1x10.Idx → Elt Ideal .f32)
    (hredTo : (⟨2, ![100000, 10]⟩ : Shape).ReducesTo [1] ⟨1, ![100000]⟩) (h0 : 0 < (⟨0, ![]⟩ : Shape).numel)
    (hb0 : (⟨0, ![]⟩ : Shape).BroadcastsInDim ⟨1, ![100000]⟩ (![] : Fin 0 → Fin (⟨1, ![100000]⟩ : Shape).rank))
    (hb1 : (⟨1, ![100000]⟩ : Shape).BroadcastsInDim ⟨2, ![100000, 1]⟩ (![0] : Fin 1 → Fin (⟨2, ![100000, 1]⟩ : Shape).rank))
    (hb2 : (⟨2, ![100000, 1]⟩ : Shape).BroadcastsInDim ⟨2, ![100000, 10]⟩ (![0, 1] : Fin 2 → Fin (⟨2, ![100000, 10]⟩ : Shape).rank)) :
    S100000x10.Idx → Elt Ideal .f32 :=
  hostLogSoftmax (logitsOf A B W BL) hredTo h0 hb0 hb1 hb2

end Cert.KernelIdeal.Result

end
-- ==== Proof.Region0.lean ====
/-
  The first launch: a grid of 20 points, point t multiplying rows 5000·t … 5000·t + 4999 of the node features by the whole
  first weight matrix. A row of a matrix product reads only that row of the left factor, so the twenty blocks written
  back are the twenty row blocks of ONE product of the whole arrays, and they tile the result array: after the launch
  the array holds the whole product.
-/
import proofs.«117442_j996432412811_1_alg».proof.Proof.Gen.KernelIdeal.Frame
import proofs.«117442_j996432412811_1_alg».proof.Proof.LibRowBlock
import proofs.«117442_j996432412811_1_alg».proof.Proof.Whole
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.PlainDot Cert.Proof.RowBlock

variable (V : (c : Dev nD) → (b : Ref sig .tc) → Buf (Elt Ideal) ((c : Thread nD τ).loc b))

/-- Both offsets of a whole-buffer access are zero. -/
theorem offs_zero : (![0, 0] : Fin 2 → Nat) = fun _ => 0 := funext fun a => by fin_cases a <;> rfl

/-- The index maps over the grid: the feature block and the result block of point t are block t of their arrays'
    rows, over all columns; the weight matrix is one block. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the launch finds. -/
theorem written0 (c : Dev nD) (t : Fin cfg0.N) :
    (dat0 V c).flushed 2 t = ((cfg0.win 2).blk t).view.read (Elt Ideal)
      (wholeProduct (V c main_arg0) (V c main_arg2)) := by
  show (cfg0.win 2).cut (grid0.coords t) ((dat0 V c).after 2 t) = _
  rw [after0_2]
  unfold out0_2
  rw [View.canon_unit_zero offs_zero]
  simp only [View.ld_unit_zero (S := S5000x128) offs_zero, View.ld_unit_zero (S := S128x128) offs_zero]
  obtain ⟨e0, e1, e2, e3, e4, e5⟩ := blocks0 t
  funext y
  show k0_pay1 (iblk0 V c 0 t) (iblk0 V c 1 t) y
    = wholeProduct (V c main_arg0) (V c main_arg2) (((cfg0.win 2).blk t).view.emb y)
  unfold k0_pay1
  refine matmul_block_eq_dot dot_S5000x128_S128x128_S5000x128_1_0_0_1_n_n rfl (DotDims.plain 100000 128 128) rfl
    (V c main_arg0) (V c main_arg2) (iblk0 V c 0 t) (iblk0 V c 1 t) bitsLt_bf16_f32 y (((cfg0.win 2).blk t).view.emb y) ?_ ?_
  · intro k
    show V c main_arg0 (((cfg0.win 0).blk t).view.emb (ix2 (y 0) k)) = _
    refine congrArg (V c main_arg0) (funext fun a => Fin.ext ?_)
    match a with
    | ⟨0, _⟩ =>
      show win0_0.index t (0 : Fin 2) * 5000 + 1 * (y 0).val = win0_2.index t (0 : Fin 2) * 5000 + 1 * (y 0).val
      omega
    | ⟨1, _⟩ =>
      show win0_0.index t (1 : Fin 2) * 128 + 1 * k.val = k.val
      omega
  · intro k
    show V c main_arg2 (((cfg0.win 1).blk t).view.emb (ix2 k (y 1))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (y 1).val = win0_2.index t (1 : Fin 2) * 128 + 1 * (y 1).val
      omega

/-- An index of the result array is in point t's block iff each coordinate is in the block's range on its axis. -/
theorem in_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row r of the result array is written by point r / 5000. -/
theorem tiled0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hq : (i 0).val / 5000 < cfg0.N := by show (i 0).val / 5000 < grid0.N; omega
  obtain ⟨-, -, -, -, e4, e5⟩ := blocks0 ⟨(i 0).val / 5000, hq⟩
  have e4' : win0_2.index ⟨(i 0).val / 5000, hq⟩ (0 : Fin 2) = (i 0).val / 5000 := e4
  refine ⟨⟨(i 0).val / 5000, hq⟩, flush0_2 _, ?_⟩
  rw [in_block0]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    omega

/-- After the launch the result array holds the product of the two arrays the launch found. -/
theorem launch0_result (c : Dev nD) :
    (dat0 V c).arrAt 2 cfg0.N = wholeProduct (V c main_arg0) (V c main_arg2) :=
  (dat0 V c).arrAt_eq_of_cover 2 _ (fun t _ => written0 V c t) tiled0

end Cert.KernelIdeal.Result

end
-- ==== Proof.Region1.lean ====
/-
  Launch 2 of four: a grid of 20 points, point t taking rows 5000·t … 5000·t + 4999 of the aggregated features, adding
  the layer's bias row to each, rectifying, and multiplying by the whole weight matrix. Entry (r, c) of the result reads
  only row r of the aggregated features, so the twenty blocks written back are the row blocks of ONE product — of the
  whole rectified, biased array with the weight matrix — and they tile the result array.
-/
import proofs.«117442_j996432412811_1_alg».proof.Proof.Gen.KernelIdeal.Frame
import proofs.«117442_j996432412811_1_alg».proof.Proof.LibRowBlock
import proofs.«117442_j996432412811_1_alg».proof.Proof.Whole
import proofs.«117442_j996432412811_1_alg».proof.Proof.LibRowBias
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.PlainDot Cert.Proof.RowBlock Cert.Proof.RowBias

variable (V : (c : Dev nD) → (b : Ref sig .tc) → Buf (Elt Ideal) ((c : Thread nD τ).loc b))

/-- Both offsets of a whole-buffer access are zero. -/
theorem offs_zero1 : (![0, 0] : Fin 2 → Nat) = fun _ => 0 := funext fun a => by fin_cases a <;> rfl

/-- The index maps over the grid: the feature block and the result block of point t are block t of their arrays' rows;
    the bias row and the weight matrix are one block each. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the product of the rectified, biased features with the weights, all as the
    launch finds them. -/
theorem written1 (c : Dev nD) (t : Fin cfg1.N) :
    (dat1 V c).flushed 3 t = ((cfg1.win 3).blk t).view.read (Elt Ideal)
      (layerProduct (V c main_v40) (V c main_v41) (V c main_arg4)) := by
  show (cfg1.win 3).cut (grid1.coords t) ((dat1 V c).after 3 t) = _
  rw [after1_3]
  unfold out1_3
  rw [View.canon_unit_zero offs_zero1]
  simp only [View.ld_unit_zero (S := S5000x128) offs_zero1, View.ld_unit_zero (S := S1x128) offs_zero1,
    View.ld_unit_zero (S := S128x128) offs_zero1]
  obtain ⟨e0, e1, e2, e3, e4, e5, e6, e7⟩ := blocks1 t
  funext y
  show k1_pay1 (iblk1 V c 0 t) (iblk1 V c 1 t) (iblk1 V c 2 t) y
    = layerProduct (V c main_v40) (V c main_v41) (V c main_arg4) (((cfg1.win 3).blk t).view.emb y)
  unfold k1_pay1
  refine matmul_block_eq_dot dot_S5000x128_S128x128_S5000x128_1_0_0_1_n_n rfl (DotDims.plain 100000 128 128) rfl
    (reluRows (biasRows (V c main_v40) (rowOf (V c main_v41)))) (V c main_arg4)
    (maximumf (addf (shapeCast S5000x128 (iblk1 V c 0 t) shapeCasts_S5000x128_S5000x128)
        (broadcastTo S5000x128 (shapeCast S1x128 (iblk1 V c 1 t) shapeCasts_S1x128_S1x128) broadcasts_S1x128_S5000x128))
      (broadcast S5000x128 (Scalar.ofBits (F := Ideal) .f32 0x00000000#32)))
    (iblk1 V c 2 t) bitsLt_bf16_f32 y (((cfg1.win 3).blk t).view.emb y) ?_ ?_
  · intro k
    refine (vpu_relu_bias_at (iblk1 V c 0 t) (iblk1 V c 1 t) shapeCasts_S5000x128_S5000x128 shapeCasts_S1x128_S1x128
      broadcasts_S1x128_S5000x128 (y 0) k).trans ?_
    have hA : iblk1 V c 0 t (ix2 (y 0) k) = V c main_v40 (ix2 ((((cfg1.win 3).blk t).view.emb y) 0) k) := by
      show V c main_v40 (((cfg1.win 0).blk t).view.emb (ix2 (y 0) k)) = _
      refine congrArg (V c main_v40) (funext fun a => Fin.ext ?_)
      match a with
      | ⟨0, _⟩ =>
        show win1_0.index t (0 : Fin 2) * 5000 + 1 * (y 0).val = win1_3.index t (0 : Fin 2) * 5000 + 1 * (y 0).val
        omega
      | ⟨1, _⟩ =>
        show win1_0.index t (1 : Fin 2) * 128 + 1 * k.val = k.val
        omega
    have hB : iblk1 V c 1 t (ix2 (0 : Fin 1) k) = V c main_v41 (ix2 (0 : Fin 1) k) := by
      show V c main_v41 (((cfg1.win 1).blk t).view.emb (ix2 (0 : Fin 1) k)) = _
      refine congrArg (V c main_v41) (funext fun a => Fin.ext ?_)
      match a with
      | ⟨0, _⟩ =>
        show win1_1.index t (0 : Fin 2) * 1 + 1 * 0 = 0
        omega
      | ⟨1, _⟩ =>
        show win1_1.index t (1 : Fin 2) * 128 + 1 * k.val = k.val
        omega
    rw [hA, hB]
    rfl
  · intro k
    show V c main_arg4 (((cfg1.win 2).blk t).view.emb (ix2 k (y 1))) = _
    refine congrArg (V c main_arg4) (funext fun a => Fin.ext ?_)
    match a with
    | ⟨0, _⟩ =>
      show win1_2.index t (0 : Fin 2) * 128 + 1 * k.val = k.val
      omega
    | ⟨1, _⟩ =>
      show win1_2.index t (1 : Fin 2) * 128 + 1 * (y 1).val = win1_3.index t (1 : Fin 2) * 128 + 1 * (y 1).val
      omega

/-- An index of the result array is in point t's block iff each coordinate is in the block's range on its axis. -/
theorem in_block1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v42).slice (win1_3.rect t)).set ↔ _
  rw [View.set_slice_whole, Rect.mem_set_unit]
  exact Iff.rfl

/-- Row r of the result array is written by point r / 5000. -/
theorem tiled1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have hq : (i 0).val / 5000 < cfg1.N := by show (i 0).val / 5000 < grid1.N; omega
  obtain ⟨-, -, -, -, -, -, e6, e7⟩ := blocks1 ⟨(i 0).val / 5000, hq⟩
  have e6' : win1_3.index ⟨(i 0).val / 5000, hq⟩ (0 : Fin 2) = (i 0).val / 5000 := e6
  refine ⟨⟨(i 0).val / 5000, hq⟩, flush1_3 _, ?_⟩
  rw [in_block1]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    omega
  | ⟨1, _⟩ =>
    show win1_3.index ⟨(i 0).val / 5000, hq⟩ (1 : Fin 2) * 128 ≤ (i 1).val
      ∧ (i 1).val < win1_3.index ⟨(i 0).val / 5000, hq⟩ (1 : Fin 2) * 128 + 128
    omega

/-- After the launch the result array holds the product of the rectified, biased features with the weights. -/
theorem launch1_result (c : Dev nD) :
    (dat1 V c).arrAt 3 cfg1.N = layerProduct (V c main_v40) (V c main_v41) (V c main_arg4) :=
  (dat1 V c).arrAt_eq_of_cover 3 _ (fun t _ => written1 V c t) tiled1

end Cert.KernelIdeal.Result

end
-- ==== Proof.Region2.lean ====
/-
  Launch 3 of four: a grid of 20 points, point t taking rows 5000·t … 5000·t + 4999 of the aggregated features, adding
  the layer's bias row to each, rectifying, and multiplying by the whole weight matrix. Entry (r, c) of the result reads
  only row r of the aggregated features, so the twenty blocks written back are the row blocks of ONE product — of the
  whole rectified, biased array with the weight matrix — and they tile the result array.
-/
import proofs.«117442_j996432412811_1_alg».proof.Proof.Gen.KernelIdeal.Frame
import proofs.«117442_j996432412811_1_alg».proof.Proof.LibRowBlock
import proofs.«117442_j996432412811_1_alg».proof.Proof.Whole
import proofs.«117442_j996432412811_1_alg».proof.Proof.LibRowBias
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.PlainDot Cert.Proof.RowBlock Cert.Proof.RowBias

variable (V : (c : Dev nD) → (b : Ref sig .tc) → Buf (Elt Ideal) ((c : Thread nD τ).loc b))

/-- Both offsets of a whole-buffer access are zero. -/
theorem offs_zero2 : (![0, 0] : Fin 2 → Nat) = fun _ => 0 := funext fun a => by fin_cases a <;> rfl

/-- The index maps over the grid: the feature block and the result block of point t are block t of their arrays' rows;
    the bias row and the weight matrix are one block each. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the product of the rectified, biased features with the weights, all as the
    launch finds them. -/
theorem written2 (c : Dev nD) (t : Fin cfg2.N) :
    (dat2 V c).flushed 3 t = ((cfg2.win 3).blk t).view.read (Elt Ideal)
      (layerProduct (V c main_v55) (V c main_v56) (V c main_arg6)) := by
  show (cfg2.win 3).cut (grid2.coords t) ((dat2 V c).after 3 t) = _
  rw [after2_3]
  unfold out2_3
  rw [View.canon_unit_zero offs_zero2]
  simp only [View.ld_unit_zero (S := S5000x128) offs_zero2, View.ld_unit_zero (S := S1x128) offs_zero2,
    View.ld_unit_zero (S := S128x128) offs_zero2]
  obtain ⟨e0, e1, e2, e3, e4, e5, e6, e7⟩ := blocks2 t
  funext y
  show k2_pay1 (iblk2 V c 0 t) (iblk2 V c 1 t) (iblk2 V c 2 t) y
    = layerProduct (V c main_v55) (V c main_v56) (V c main_arg6) (((cfg2.win 3).blk t).view.emb y)
  unfold k2_pay1
  refine matmul_block_eq_dot dot_S5000x128_S128x128_S5000x128_1_0_0_1_n_n rfl (DotDims.plain 100000 128 128) rfl
    (reluRows (biasRows (V c main_v55) (rowOf (V c main_v56)))) (V c main_arg6)
    (maximumf (addf (shapeCast S5000x128 (iblk2 V c 0 t) shapeCasts_S5000x128_S5000x128)
        (broadcastTo S5000x128 (shapeCast S1x128 (iblk2 V c 1 t) shapeCasts_S1x128_S1x128) broadcasts_S1x128_S5000x128))
      (broadcast S5000x128 (Scalar.ofBits (F := Ideal) .f32 0x00000000#32)))
    (iblk2 V c 2 t) bitsLt_bf16_f32 y (((cfg2.win 3).blk t).view.emb y) ?_ ?_
  · intro k
    refine (vpu_relu_bias_at (iblk2 V c 0 t) (iblk2 V c 1 t) shapeCasts_S5000x128_S5000x128 shapeCasts_S1x128_S1x128
      broadcasts_S1x128_S5000x128 (y 0) k).trans ?_
    have hA : iblk2 V c 0 t (ix2 (y 0) k) = V c main_v55 (ix2 ((((cfg2.win 3).blk t).view.emb y) 0) k) := by
      show V c main_v55 (((cfg2.win 0).blk t).view.emb (ix2 (y 0) k)) = _
      refine congrArg (V c main_v55) (funext fun a => Fin.ext ?_)
      match a with
      | ⟨0, _⟩ =>
        show win2_0.index t (0 : Fin 2) * 5000 + 1 * (y 0).val = win2_3.index t (0 : Fin 2) * 5000 + 1 * (y 0).val
        omega
      | ⟨1, _⟩ =>
        show win2_0.index t (1 : Fin 2) * 128 + 1 * k.val = k.val
        omega
    have hB : iblk2 V c 1 t (ix2 (0 : Fin 1) k) = V c main_v56 (ix2 (0 : Fin 1) k) := by
      show V c main_v56 (((cfg2.win 1).blk t).view.emb (ix2 (0 : Fin 1) k)) = _
      refine congrArg (V c main_v56) (funext fun a => Fin.ext ?_)
      match a with
      | ⟨0, _⟩ =>
        show win2_1.index t (0 : Fin 2) * 1 + 1 * 0 = 0
        omega
      | ⟨1, _⟩ =>
        show win2_1.index t (1 : Fin 2) * 128 + 1 * k.val = k.val
        omega
    rw [hA, hB]
    rfl
  · intro k
    show V c main_arg6 (((cfg2.win 2).blk t).view.emb (ix2 k (y 1))) = _
    refine congrArg (V c main_arg6) (funext fun a => Fin.ext ?_)
    match a with
    | ⟨0, _⟩ =>
      show win2_2.index t (0 : Fin 2) * 128 + 1 * k.val = k.val
      omega
    | ⟨1, _⟩ =>
      show win2_2.index t (1 : Fin 2) * 128 + 1 * (y 1).val = win2_3.index t (1 : Fin 2) * 128 + 1 * (y 1).val
      omega

/-- An index of the result array is in point t's block iff each coordinate is in the block's range on its axis. -/
theorem in_block2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v57).slice (win2_3.rect t)).set ↔ _
  rw [View.set_slice_whole, Rect.mem_set_unit]
  exact Iff.rfl

/-- Row r of the result array is written by point r / 5000. -/
theorem tiled2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  have hq : (i 0).val / 5000 < cfg2.N := by show (i 0).val / 5000 < grid2.N; omega
  obtain ⟨-, -, -, -, -, -, e6, e7⟩ := blocks2 ⟨(i 0).val / 5000, hq⟩
  have e6' : win2_3.index ⟨(i 0).val / 5000, hq⟩ (0 : Fin 2) = (i 0).val / 5000 := e6
  refine ⟨⟨(i 0).val / 5000, hq⟩, flush2_3 _, ?_⟩
  rw [in_block2]
  intro a
  match a with
  | ⟨0, _⟩ =>
    show win2_3.index ⟨(i 0).val / 5000, hq⟩ (0 : Fin 2) * 5000 ≤ (i 0).val
      ∧ (i 0).val < win2_3.index ⟨(i 0).val / 5000, hq⟩ (0 : Fin 2) * 5000 + 5000
    omega
  | ⟨1, _⟩ =>
    show win2_3.index ⟨(i 0).val / 5000, hq⟩ (1 : Fin 2) * 128 ≤ (i 1).val
      ∧ (i 1).val < win2_3.index ⟨(i 0).val / 5000, hq⟩ (1 : Fin 2) * 128 + 128
    omega

/-- After the launch the result array holds the product of the rectified, biased features with the weights. -/
theorem launch2_result (c : Dev nD) :
    (dat2 V c).arrAt 3 cfg2.N = layerProduct (V c main_v55) (V c main_v56) (V c main_arg6) :=
  (dat2 V c).arrAt_eq_of_cover 3 _ (fun t _ => written2 V c t) tiled2

end Cert.KernelIdeal.Result

end
-- ==== Proof.Region3.lean ====
/-
  The last launch: a grid of 20 points, point t taking rows 5000·t … 5000·t + 4999 of the aggregated features, adding the
  third bias row, multiplying by the 128×10 classifier matrix, adding the classifier's bias row, and taking the log-softmax
  of each row of ten. Every step reads one row: the logits of row r are a function of row r of the features, and the
  log-softmax of a row is a function of that row's ten logits. So the twenty blocks written back are the row blocks of ONE
  array — the row-wise log-softmax of the whole logits array — and they tile the result.
-/
import proofs.«117442_j996432412811_1_alg».proof.Proof.Gen.KernelIdeal.Frame
import proofs.«117442_j996432412811_1_alg».proof.Proof.LibRowBlock
import proofs.«117442_j996432412811_1_alg».proof.Proof.Whole
import proofs.«117442_j996432412811_1_alg».proof.Proof.LibRowBias
import proofs.«117442_j996432412811_1_alg».proof.Proof.LibLogSoftmaxRow
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.PlainDot Cert.Proof.RowBlock Cert.Proof.RowBias Cert.Proof.LogSoftmaxRow

variable (V : (c : Dev nD) → (b : Ref sig .tc) → Buf (Elt Ideal) ((c : Thread nD τ).loc b))

/-- Both offsets of a whole-buffer access are zero. -/
theorem offs_zero3 : (![0, 0] : Fin 2 → Nat) = fun _ => 0 := funext fun a => by fin_cases a <;> rfl

/-- The index maps over the grid: the feature block and the result block of point t are block t of their arrays' rows;
    the two bias rows and the classifier matrix are one block each. -/
theorem blocks3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The logits of a block of rows, in the vector unit's spelling. -/
def blockLogits (x0 : Vec Ideal S5000x128 .f32) (x1 : Vec Ideal S1x128 .f32) (x2 : Vec Ideal S128x10 .f32)
    (x3 : Vec Ideal S1x10 .f32) : FVec Ideal S5000x10 .f32 :=
  addf (matmul dot_S5000x128_S128x10_S5000x10_1_0_0_1_n_n none
      (truncf .bf16 (addf (shapeCast S5000x128 x0 shapeCasts_S5000x128_S5000x128)
        (broadcastTo S5000x128 (shapeCast S1x128 x1 shapeCasts_S1x128_S1x128) broadcasts_S1x128_S5000x128)) bitsLt_bf16_f32)
      (truncf .bf16 x2 bitsLt_bf16_f32) (constant S5000x10 .f32 0x00000000#32))
    (broadcastTo S5000x10 (shapeCast S1x10 x3 shapeCasts_S1x10_S1x10) broadcasts_S1x10_S5000x10)

/-- The body's stored value is the row-wise log-softmax of the block's logits. -/
theorem stored3 (x0 : Vec Ideal S5000x128 .f32) (x1 : Vec Ideal S1x128 .f32) (x2 : Vec Ideal S128x10 .f32)
    (x3 : Vec Ideal S1x10 .f32) :
    k3_pay1 x0 x1 x2 x3 = vpuLogSoftmax (a := 5000) (c := 10) (blockLogits x0 x1 x2 x3)
      reduces_S5000x10_S5000 shapeCasts_S5000_S5000x1 broadcasts_S5000x1_S5000x10 := rfl

/-- Two row-wise log-softmaxes agree at an entry when the two rows agree: stated at general indices. -/
theorem logSoftmax_entry {a n c : ℕ} (L : FVec Ideal ⟨2, ![a, c]⟩ .f32) (H : FVec Ideal ⟨2, ![n, c]⟩ .f32)
    (hred : (⟨2, ![a, c]⟩ : Shape).Reduces [1] ⟨1, ![a]⟩) (hsc : (⟨1, ![a]⟩ : Shape).ShapeCasts ⟨2, ![a, 1]⟩)
    (hbc : (⟨2, ![a, 1]⟩ : Shape).Broadcasts ⟨2, ![a, c]⟩)
    (hredTo : (⟨2, ![n, c]⟩ : Shape).ReducesTo [1] ⟨1, ![n]⟩) (h0 : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, c]⟩ (![0, 1] : Fin 2 → Fin (⟨2, ![n, c]⟩ : Shape).rank))
    (y : (⟨2, ![a, c]⟩ : Shape).Idx) (i : (⟨2, ![n, c]⟩ : Shape).Idx) (hcol : (i 1).val = (y 1).val)
    (hrow : ∀ j : Fin c, L (ix2 (y 0) j) = H (ix2 (i 0) j)) :
    vpuLogSoftmax L hred hsc hbc y = hostLogSoftmax H hredTo h0 hb0 hb1 hb2 i := by
  have hi : i = ix2 (i 0) (y 1) := (eq_ix2 i).trans (congrArg (ix2 (i 0)) (Fin.ext hcol))
  rw [eq_ix2 y, hi]
  exact vpu_eq_host L H hred hsc hbc hredTo h0 hb0 hb1 hb2 (y 0) (i 0) hrow (y 1)

section
variable (hredTo : (⟨2, ![100000, 10]⟩ : Shape).ReducesTo [1] ⟨1, ![100000]⟩) (h0 : 0 < (⟨0, ![]⟩ : Shape).numel)
  (hb0 : (⟨0, ![]⟩ : Shape).BroadcastsInDim ⟨1, ![100000]⟩ (![] : Fin 0 → Fin (⟨1, ![100000]⟩ : Shape).rank))
  (hb1 : (⟨1, ![100000]⟩ : Shape).BroadcastsInDim ⟨2, ![100000, 1]⟩ (![0] : Fin 1 → Fin (⟨2, ![100000, 1]⟩ : Shape).rank))
  (hb2 : (⟨2, ![100000, 1]⟩ : Shape).BroadcastsInDim ⟨2, ![100000, 10]⟩ (![0, 1] : Fin 2 → Fin (⟨2, ![100000, 10]⟩ : Shape).rank))

/-- What point t writes back is block t of the row-wise log-softmax of the logits of the arrays the launch finds. -/
theorem written3 (c : Dev nD) (t : Fin cfg3.N) :
    (dat3 V c).flushed 4 t = ((cfg3.win 4).blk t).view.read (Elt Ideal)
      (resultOf (V c main_v70) (V c main_v71) (V c main_arg8) (V c main_v72) hredTo h0 hb0 hb1 hb2) := by
  show (cfg3.win 4).cut (grid3.coords t) ((dat3 V c).after 4 t) = _
  rw [after3_4]
  unfold out3_4
  rw [View.canon_unit_zero offs_zero3]
  simp only [View.ld_unit_zero (S := S5000x128) offs_zero3, View.ld_unit_zero (S := S1x128) offs_zero3,
    View.ld_unit_zero (S := S128x10) offs_zero3, View.ld_unit_zero (S := S1x10) offs_zero3]
  obtain ⟨e0, e1, e2, e3, e4, e5, e6, e7, e8, e9⟩ := blocks3 t
  funext y
  show k3_pay1 (iblk3 V c 0 t) (iblk3 V c 1 t) (iblk3 V c 2 t) (iblk3 V c 3 t) y
    = resultOf (V c main_v70) (V c main_v71) (V c main_arg8) (V c main_v72) hredTo h0 hb0 hb1 hb2
        (((cfg3.win 4).blk t).view.emb y)
  rw [stored3]
  refine logSoftmax_entry (blockLogits (iblk3 V c 0 t) (iblk3 V c 1 t) (iblk3 V c 2 t) (iblk3 V c 3 t))
    (logitsOf (V c main_v70) (V c main_v71) (V c main_arg8) (V c main_v72))
    reduces_S5000x10_S5000 shapeCasts_S5000_S5000x1 broadcasts_S5000x1_S5000x10 hredTo h0 hb0 hb1 hb2
    y (((cfg3.win 4).blk t).view.emb y) ?_ ?_
  · show win3_4.index t (1 : Fin 2) * 10 + 1 * (y 1).val = (y 1).val
    omega
  · intro j
    unfold blockLogits logitsOf
    refine (vpu_add_row_at _ (iblk3 V c 3 t) shapeCasts_S1x10_S1x10 broadcasts_S1x10_S5000x10 (y 0) j).trans ?_
    refine (congrArg₂ (· + ·) ?_ ?_ : _ = biasRows _ (rowOf (V c main_v72)) (ix2 ((((cfg3.win 4).blk t).view.emb y) 0) j))
    · refine matmul_block_eq_dot dot_S5000x128_S128x10_S5000x10_1_0_0_1_n_n rfl (DotDims.plain 100000 128 10) rfl
        (biasRows (V c main_v70) (rowOf (V c main_v71))) (V c main_arg8)
        (addf (shapeCast S5000x128 (iblk3 V c 0 t) shapeCasts_S5000x128_S5000x128)
          (broadcastTo S5000x128 (shapeCast S1x128 (iblk3 V c 1 t) shapeCasts_S1x128_S1x128) broadcasts_S1x128_S5000x128))
        (iblk3 V c 2 t) bitsLt_bf16_f32 (ix2 (y 0) j) (ix2 ((((cfg3.win 4).blk t).view.emb y) 0) j) ?_ ?_
      · intro k
        refine (vpu_bias_at (iblk3 V c 0 t) (iblk3 V c 1 t) shapeCasts_S5000x128_S5000x128 shapeCasts_S1x128_S1x128
          broadcasts_S1x128_S5000x128 (y 0) k).trans ?_
        have hA : iblk3 V c 0 t (ix2 (y 0) k) = V c main_v70 (ix2 ((((cfg3.win 4).blk t).view.emb y) 0) k) := by
          show V c main_v70 (((cfg3.win 0).blk t).view.emb (ix2 (y 0) k)) = _
          refine congrArg (V c main_v70) (funext fun a => Fin.ext ?_)
          match a with
          | ⟨0, _⟩ =>
            show win3_0.index t (0 : Fin 2) * 5000 + 1 * (y 0).val = win3_4.index t (0 : Fin 2) * 5000 + 1 * (y 0).val
            omega
          | ⟨1, _⟩ =>
            show win3_0.index t (1 : Fin 2) * 128 + 1 * k.val = k.val
            omega
        have hB : iblk3 V c 1 t (ix2 (0 : Fin 1) k) = V c main_v71 (ix2 (0 : Fin 1) k) := by
          show V c main_v71 (((cfg3.win 1).blk t).view.emb (ix2 (0 : Fin 1) k)) = _
          refine congrArg (V c main_v71) (funext fun a => Fin.ext ?_)
          match a with
          | ⟨0, _⟩ =>
            show win3_1.index t (0 : Fin 2) * 1 + 1 * 0 = 0
            omega
          | ⟨1, _⟩ =>
            show win3_1.index t (1 : Fin 2) * 128 + 1 * k.val = k.val
            omega
        rw [hA, hB]
        rfl
      · intro k
        show V c main_arg8 (((cfg3.win 2).blk t).view.emb (ix2 k j)) = V c main_arg8 (ix2 k j)
        refine congrArg (V c main_arg8) (funext fun a => Fin.ext ?_)
        match a with
        | ⟨0, _⟩ =>
          show win3_2.index t (0 : Fin 2) * 128 + 1 * k.val = k.val
          omega
        | ⟨1, _⟩ =>
          show win3_2.index t (1 : Fin 2) * 10 + 1 * j.val = j.val
          omega
    · show V c main_v72 (((cfg3.win 3).blk t).view.emb (ix2 (0 : Fin 1) j)) = V c main_v72 (ix2 (0 : Fin 1) j)
      refine congrArg (V c main_v72) (funext fun a => Fin.ext ?_)
      match a with
      | ⟨0, _⟩ =>
        show win3_3.index t (0 : Fin 2) * 1 + 1 * 0 = 0
        omega
      | ⟨1, _⟩ =>
        show win3_3.index t (1 : Fin 2) * 10 + 1 * j.val = j.val
        omega

/-- An index of the result array is in point t's block iff each coordinate is in the block's range on its axis. -/
theorem in_block3 (t : Fin cfg3.N) (i : S100000x10.Idx) :
    i ∈ ((cfg3.win 4).blk t).view.set ↔ ∀ a : Fin 2, win3_4.index t a * S5000x10.size a ≤ (i a).val
      ∧ (i a).val < win3_4.index t a * S5000x10.size a + S5000x10.size a := by
  show i ∈ ((View.whole main_v73).slice (win3_4.rect t)).set ↔ _
  rw [View.set_slice_whole, Rect.mem_set_unit]
  exact Iff.rfl

/-- Row r of the result array is written by point r / 5000. -/
theorem tiled3 (i : S100000x10.Idx) :
    ∃ t : Fin cfg3.N, (cfg3.win 4).flush t = true ∧ i ∈ ((cfg3.win 4).blk t).view.set := by
  have hi0 : (i 0).val < 100000 := (i 0).isLt
  have hi1 : (i 1).val < 10 := (i 1).isLt
  have hN : grid3.N = 20 := N_3
  have hq : (i 0).val / 5000 < cfg3.N := by show (i 0).val / 5000 < grid3.N; omega
  obtain ⟨-, -, -, -, -, -, -, -, e8, e9⟩ := blocks3 ⟨(i 0).val / 5000, hq⟩
  have e8' : win3_4.index ⟨(i 0).val / 5000, hq⟩ (0 : Fin 2) = (i 0).val / 5000 := e8
  refine ⟨⟨(i 0).val / 5000, hq⟩, flush3_4 _, ?_⟩
  rw [in_block3]
  intro a
  match a with
  | ⟨0, _⟩ =>
    show win3_4.index ⟨(i 0).val / 5000, hq⟩ (0 : Fin 2) * 5000 ≤ (i 0).val
      ∧ (i 0).val < win3_4.index ⟨(i 0).val / 5000, hq⟩ (0 : Fin 2) * 5000 + 5000
    omega
  | ⟨1, _⟩ =>
    show win3_4.index ⟨(i 0).val / 5000, hq⟩ (1 : Fin 2) * 10 ≤ (i 1).val
      ∧ (i 1).val < win3_4.index ⟨(i 0).val / 5000, hq⟩ (1 : Fin 2) * 10 + 10
    omega

/-- After the launch the result array holds the row-wise log-softmax of the logits of the arrays the launch found. -/
theorem launch3_result (c : Dev nD) :
    (dat3 V c).arrAt 4 cfg3.N
      = resultOf (V c main_v70) (V c main_v71) (V c main_arg8) (V c main_v72) hredTo h0 hb0 hb1 hb2 :=
  (dat3 V c).arrAt_eq_of_cover 4 _ (fun t _ => written3 V hredTo h0 hb0 hb1 hb2 c t) tiled3

end

end Cert.KernelIdeal.Result

end
-- ==== Proof.Stretches.lean ====
/-
  The stretches of host operations between the launches, read back one buffer at a time from ARBITRARY starting contents.
  The first stretch turns the edge list into source nodes, destination nodes (each with the self-loops appended) and the
  symmetric-normalisation weight of every edge; each later stretch gathers a launch's result along the sources, scales by
  the weights, scatter-adds along the destinations, and reshapes the next bias vector into a row. The reference program
  applies the same operations in the same order, so each buffer read back IS the reference's stage function of the same
  inputs; the gathers and scatters are never opened. A buffer no operation of a stretch writes keeps its contents.
-/
import proofs.«117442_j996432412811_1_alg».proof.Proof.Gen.KernelIdeal.Launch
import proofs.«117442_j996432412811_1_alg».proof.Proof.ReadP
import proofs.«117442_j996432412811_1_alg».proof.Proof.LibRowBias
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.StableHlo
open Cert.ReferenceIdeal.ReadP (val_main_v3 val_main_v6 val_main_v26 val_main_v27 val_main_v40 val_main_v45 val_main_v58 val_main_v63 val_main_v76)

variable (X : Valuation τ sig (Elt Ideal))

/-! ## The first stretch: the graph's structure from the edge list -/

/-- The source node of every edge, self-loops appended. -/
theorem sources0 : StableHlo.after (hostOps0 (F := Ideal)) X (Proc.devRef .tc main_v3) = val_main_v3 (F := Ideal) (X (Proc.devRef .tc main_arg1)) := by
  after_results_simp
  rfl

/-- The destination node of every edge, self-loops appended. -/
theorem targets0 : StableHlo.after (hostOps0 (F := Ideal)) X (Proc.devRef .tc main_v6) = val_main_v6 (F := Ideal) (X (Proc.devRef .tc main_arg1)) := by
  after_results_simp
  rfl

/-- The weight of every edge: the reciprocal square roots of its two end nodes' degrees, multiplied. -/
theorem weights0 : StableHlo.after (hostOps0 (F := Ideal)) X (Proc.devRef .tc main_v26) = val_main_v26 (F := Ideal) (X (Proc.devRef .tc main_arg1)) := by
  after_results_simp
  rfl

theorem kept0_main_arg0 : StableHlo.after (hostOps0 (F := Ideal)) X (Proc.devRef .tc main_arg0) = X (Proc.devRef .tc main_arg0) := by
  after_results_simp
theorem kept0_main_arg2 : StableHlo.after (hostOps0 (F := Ideal)) X (Proc.devRef .tc main_arg2) = X (Proc.devRef .tc main_arg2) := by
  after_results_simp
theorem kept0_main_arg3 : StableHlo.after (hostOps0 (F := Ideal)) X (Proc.devRef .tc main_arg3) = X (Proc.devRef .tc main_arg3) := by
  after_results_simp
theorem kept0_main_arg4 : StableHlo.after (hostOps0 (F := Ideal)) X (Proc.devRef .tc main_arg4) = X (Proc.devRef .tc main_arg4) := by
  after_results_simp
theorem kept0_main_arg5 : StableHlo.after (hostOps0 (F := Ideal)) X (Proc.devRef .tc main_arg5) = X (Proc.devRef .tc main_arg5) := by
  after_results_simp
theorem kept0_main_arg6 : StableHlo.after (hostOps0 (F := Ideal)) X (Proc.devRef .tc main_arg6) = X (Proc.devRef .tc main_arg6) := by
  after_results_simp
theorem kept0_main_arg7 : StableHlo.after (hostOps0 (F := Ideal)) X (Proc.devRef .tc main_arg7) = X (Proc.devRef .tc main_arg7) := by
  after_results_simp
theorem kept0_main_arg8 : StableHlo.after (hostOps0 (F := Ideal)) X (Proc.devRef .tc main_arg8) = X (Proc.devRef .tc main_arg8) := by
  after_results_simp
theorem kept0_main_arg9 : StableHlo.after (hostOps0 (F := Ideal)) X (Proc.devRef .tc main_arg9) = X (Proc.devRef .tc main_arg9) := by
  after_results_simp

/-! ## The stretch after the first launch -/

/-- The aggregation stretch after launch 1: each edge takes its source node's row of the launch's result, scaled by the
    edge's weight, and adds it into its destination node's row. -/
theorem aggregated1 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal))
    (hs : X (Proc.devRef .tc main_v3) = val_main_v3 (F := Ideal) x1) (hd : X (Proc.devRef .tc main_v6) = val_main_v6 (F := Ideal) x1)
    (hn : X (Proc.devRef .tc main_v26) = val_main_v26 (F := Ideal) x1)
    (hh : X (Proc.devRef .tc main_v27) = val_main_v27 (F := Ideal) x0 x2) :
    StableHlo.after (hostOps1 (F := Ideal)) X (Proc.devRef .tc main_v40) = val_main_v40 (F := Ideal) x0 x1 x2 := by
  after_results_simp
  rw [hs, hd, hn, hh]
  rfl

/-- The first bias vector as a row. -/
theorem biasRow1 : StableHlo.after (hostOps1 (F := Ideal)) X (Proc.devRef .tc main_v41)
    = shapeCast S1x128 (X (Proc.devRef .tc main_arg3)) shapeCasts_S128_S1x128 := by
  after_results
  rfl

theorem kept1_main_v3 : StableHlo.after (hostOps1 (F := Ideal)) X (Proc.devRef .tc main_v3) = X (Proc.devRef .tc main_v3) := by
  after_results_simp
theorem kept1_main_v6 : StableHlo.after (hostOps1 (F := Ideal)) X (Proc.devRef .tc main_v6) = X (Proc.devRef .tc main_v6) := by
  after_results_simp
theorem kept1_main_v26 : StableHlo.after (hostOps1 (F := Ideal)) X (Proc.devRef .tc main_v26) = X (Proc.devRef .tc main_v26) := by
  after_results_simp
theorem kept1_main_arg4 : StableHlo.after (hostOps1 (F := Ideal)) X (Proc.devRef .tc main_arg4) = X (Proc.devRef .tc main_arg4) := by
  after_results_simp
theorem kept1_main_arg5 : StableHlo.after (hostOps1 (F := Ideal)) X (Proc.devRef .tc main_arg5) = X (Proc.devRef .tc main_arg5) := by
  after_results_simp
theorem kept1_main_arg6 : StableHlo.after (hostOps1 (F := Ideal)) X (Proc.devRef .tc main_arg6) = X (Proc.devRef .tc main_arg6) := by
  after_results_simp
theorem kept1_main_arg7 : StableHlo.after (hostOps1 (F := Ideal)) X (Proc.devRef .tc main_arg7) = X (Proc.devRef .tc main_arg7) := by
  after_results_simp
theorem kept1_main_arg8 : StableHlo.after (hostOps1 (F := Ideal)) X (Proc.devRef .tc main_arg8) = X (Proc.devRef .tc main_arg8) := by
  after_results_simp
theorem kept1_main_arg9 : StableHlo.after (hostOps1 (F := Ideal)) X (Proc.devRef .tc main_arg9) = X (Proc.devRef .tc main_arg9) := by
  after_results_simp

/-! ## The stretch after the second launch -/

/-- The aggregation stretch after launch 2: each edge takes its source node's row of the launch's result, scaled by the
    edge's weight, and adds it into its destination node's row. -/
theorem aggregated2 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (hs : X (Proc.devRef .tc main_v3) = val_main_v3 (F := Ideal) x1) (hd : X (Proc.devRef .tc main_v6) = val_main_v6 (F := Ideal) x1)
    (hn : X (Proc.devRef .tc main_v26) = val_main_v26 (F := Ideal) x1)
    (hh : X (Proc.devRef .tc main_v42) = val_main_v45 (F := Ideal) x0 x1 x2 x3 x4) :
    StableHlo.after (hostOps2 (F := Ideal)) X (Proc.devRef .tc main_v55) = val_main_v58 (F := Ideal) x0 x1 x2 x3 x4 := by
  after_results_simp
  rw [hs, hd, hn, hh]
  rfl

/-- The second bias vector as a row. -/
theorem biasRow2 : StableHlo.after (hostOps2 (F := Ideal)) X (Proc.devRef .tc main_v56)
    = shapeCast S1x128 (X (Proc.devRef .tc main_arg5)) shapeCasts_S128_S1x128 := by
  after_results
  rfl

theorem kept2_main_v3 : StableHlo.after (hostOps2 (F := Ideal)) X (Proc.devRef .tc main_v3) = X (Proc.devRef .tc main_v3) := by
  after_results_simp
theorem kept2_main_v6 : StableHlo.after (hostOps2 (F := Ideal)) X (Proc.devRef .tc main_v6) = X (Proc.devRef .tc main_v6) := by
  after_results_simp
theorem kept2_main_v26 : StableHlo.after (hostOps2 (F := Ideal)) X (Proc.devRef .tc main_v26) = X (Proc.devRef .tc main_v26) := by
  after_results_simp
theorem kept2_main_arg6 : StableHlo.after (hostOps2 (F := Ideal)) X (Proc.devRef .tc main_arg6) = X (Proc.devRef .tc main_arg6) := by
  after_results_simp
theorem kept2_main_arg7 : StableHlo.after (hostOps2 (F := Ideal)) X (Proc.devRef .tc main_arg7) = X (Proc.devRef .tc main_arg7) := by
  after_results_simp
theorem kept2_main_arg8 : StableHlo.after (hostOps2 (F := Ideal)) X (Proc.devRef .tc main_arg8) = X (Proc.devRef .tc main_arg8) := by
  after_results_simp
theorem kept2_main_arg9 : StableHlo.after (hostOps2 (F := Ideal)) X (Proc.devRef .tc main_arg9) = X (Proc.devRef .tc main_arg9) := by
  after_results_simp

/-! ## The stretch after the third launch -/

/-- The aggregation stretch after launch 3: each edge takes its source node's row of the launch's result, scaled by the
    edge's weight, and adds it into its destination node's row. -/
theorem aggregated3 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal))
    (hs : X (Proc.devRef .tc main_v3) = val_main_v3 (F := Ideal) x1) (hd : X (Proc.devRef .tc main_v6) = val_main_v6 (F := Ideal) x1)
    (hn : X (Proc.devRef .tc main_v26) = val_main_v26 (F := Ideal) x1)
    (hh : X (Proc.devRef .tc main_v57) = val_main_v63 (F := Ideal) x0 x1 x2 x3 x4 x5 x6) :
    StableHlo.after (hostOps3 (F := Ideal)) X (Proc.devRef .tc main_v70) = val_main_v76 (F := Ideal) x0 x1 x2 x3 x4 x5 x6 := by
  after_results_simp
  rw [hs, hd, hn, hh]
  rfl

/-- The third bias vector as a row. -/
theorem biasRow3 : StableHlo.after (hostOps3 (F := Ideal)) X (Proc.devRef .tc main_v71)
    = shapeCast S1x128 (X (Proc.devRef .tc main_arg7)) shapeCasts_S128_S1x128 := by
  after_results
  rfl

/-- The classifier's bias vector as a row. -/
theorem biasRow4 : StableHlo.after (hostOps3 (F := Ideal)) X (Proc.devRef .tc main_v72)
    = shapeCast S1x10 (X (Proc.devRef .tc main_arg9)) shapeCasts_S10_S1x10 := by
  after_results
  rfl

theorem kept3_main_arg8 : StableHlo.after (hostOps3 (F := Ideal)) X (Proc.devRef .tc main_arg8) = X (Proc.devRef .tc main_arg8) := by
  after_results_simp

end Cert.KernelIdeal.Result

end
-- ==== Proof.RefLayers.lean ====
/-
  The reference program's three layers, stage by stage, as plain functions of the earlier stages.

  The reference is a three-layer graph convolution on whole arrays. Each layer adds a bias row to an aggregated
  `100000 × 128` array — and rectifies the sum, in layers 1 and 2 — and multiplies the result by a weight matrix; the
  last product, `100000 × 10`, gets a bias row and a row-wise log-softmax. The program spells the bias addition as two
  broadcasts of the row and an addition, the rectifier as a maximum with a broadcast scalar zero, and the log-softmax as
  a reduction with `max`, a maximum with `-∞`, broadcasts, a subtraction, the exponential, a reduction with `+`, the
  logarithm and a subtraction. Here each such stage of the program is identified with the plain function it computes on
  the extended reals: `biasRows` / `reluRows` of the aggregated array and the bias (`layer1_in`, `layer2_in`,
  `layer3_in`, `logits`), the plain matrix product of a layer's input with its weights (`product1` … `product4`), and
  `hostLogSoftmax` of the logits (`result`). Each proof opens only the few stage definitions between the two stages it
  relates; the earlier stage stays a closed name.
-/
import proofs.«117442_j996432412811_1_alg».proof.Proof.ReadP
import proofs.«117442_j996432412811_1_alg».proof.Proof.LibRowBias
import proofs.«117442_j996432412811_1_alg».proof.Proof.LibLogSoftmaxRow
import proofs.«117442_j996432412811_1_alg».proof.Proof.LibPlainDot

noncomputable section

namespace Cert.ReferenceIdeal.Layers

open Cert.ReferenceIdeal Cert.ReferenceIdeal.Gen Cert.ReferenceIdeal.ReadP Cert.Proof.RowBias Cert.Proof.LogSoftmaxRow
  Idealize.ShloMosaic Idealize.ShloMosaic.ValueIdx

variable (x0 : (⟨S100000x128, .f32⟩ : BufTy).Contents (Elt Ideal))
variable (x1 : (⟨S2x1600000, .i32⟩ : BufTy).Contents (Elt Ideal))
variable (x2 : (⟨S128x128, .f32⟩ : BufTy).Contents (Elt Ideal))
variable (x3 : (⟨S128, .f32⟩ : BufTy).Contents (Elt Ideal))
variable (x4 : (⟨S128x128, .f32⟩ : BufTy).Contents (Elt Ideal))
variable (x5 : (⟨S128, .f32⟩ : BufTy).Contents (Elt Ideal))
variable (x6 : (⟨S128x128, .f32⟩ : BufTy).Contents (Elt Ideal))
variable (x7 : (⟨S128, .f32⟩ : BufTy).Contents (Elt Ideal))
variable (x8 : (⟨S128x10, .f32⟩ : BufTy).Contents (Elt Ideal))
variable (x9 : (⟨S10, .f32⟩ : BufTy).Contents (Elt Ideal))

/-! ## The dimension numbers are the plain ones -/

/-- The `100000 × 128` by `128 × 128` product's dimension numbers are the plain ones. -/
theorem dot128_eq : dot_S100000x128_S128x128_S100000x128_1_0_0_1_n_n = DotDims.plain 100000 128 128 := rfl

/-- The `100000 × 128` by `128 × 10` product's dimension numbers are the plain ones. -/
theorem dot10_eq : dot_S100000x128_S128x10_S100000x10_1_0_0_1_n_n = DotDims.plain 100000 128 10 := rfl

/-! ## Bias and rectifier -/

/-- Layer 1's input to its product: the aggregated array plus the bias row, rectified. -/
theorem layer1_in :
    val_main_v44 (F := Ideal) x0 x1 x2 x3 = reluRows (biasRows (val_main_v40 (F := Ideal) x0 x1 x2) x3) := by
  unfold val_main_v44 val_main_v43 val_main_v42 val_main_v41 val_main_call0_v0 val_main_call0_cst
  generalize val_main_v40 (F := Ideal) x0 x1 x2 = A
  have hb := host_bias (n := 100000) (k := 128) A x3 bcast_S128_S1x128_1 bcast_S1x128_S100000x128_0_1
  have hr := host_relu (n := 100000) (k := 128) (biasRows A x3) bcast_S_S100000x128
  exact (congrArg (fun Y : FVec Ideal S100000x128 .f32 =>
    maximumf Y (broadcastInDim S100000x128 ![] bcast_S_S100000x128 (constant (F := Ideal) S_ .f32 0x00000000#32))) hb).trans hr

/-- Layer 2's input to its product: the aggregated array plus the bias row, rectified. -/
theorem layer2_in :
    val_main_v62 (F := Ideal) x0 x1 x2 x3 x4 x5
      = reluRows (biasRows (val_main_v58 (F := Ideal) x0 x1 x2 x3 x4) x5) := by
  unfold val_main_v62 val_main_v61 val_main_v60 val_main_v59 val_main_call1_v0 val_main_call1_cst
  generalize val_main_v58 (F := Ideal) x0 x1 x2 x3 x4 = A
  have hb := host_bias (n := 100000) (k := 128) A x5 bcast_S128_S1x128_1 bcast_S1x128_S100000x128_0_1
  have hr := host_relu (n := 100000) (k := 128) (biasRows A x5) bcast_S_S100000x128
  exact (congrArg (fun Y : FVec Ideal S100000x128 .f32 =>
    maximumf Y (broadcastInDim S100000x128 ![] bcast_S_S100000x128 (constant (F := Ideal) S_ .f32 0x00000000#32))) hb).trans hr

/-- Layer 3's input to its product: the aggregated array plus the bias row (no rectifier). -/
theorem layer3_in :
    val_main_v79 (F := Ideal) x0 x1 x2 x3 x4 x5 x6 x7
      = biasRows (val_main_v76 (F := Ideal) x0 x1 x2 x3 x4 x5 x6) x7 := by
  unfold val_main_v79 val_main_v78 val_main_v77
  generalize val_main_v76 (F := Ideal) x0 x1 x2 x3 x4 x5 x6 = A
  exact host_bias (n := 100000) (k := 128) A x7 bcast_S128_S1x128_1 bcast_S1x128_S100000x128_0_1

/-- The logits: the last product plus its bias row. -/
theorem logits :
    val_main_v83 (F := Ideal) x0 x1 x2 x3 x4 x5 x6 x7 x8 x9
      = biasRows (val_main_v80 (F := Ideal) x0 x1 x2 x3 x4 x5 x6 x7 x8) x9 := by
  unfold val_main_v83 val_main_v82 val_main_v81
  generalize val_main_v80 (F := Ideal) x0 x1 x2 x3 x4 x5 x6 x7 x8 = A
  exact host_bias (n := 100000) (k := 10) A x9 bcast_S10_S1x10_1 bcast_S1x10_S100000x10_0_1

/-! ## The products -/

/-- Layer 1's product: the features times the first weight matrix. -/
theorem product1 : val_main_v27 (F := Ideal) x0 x2 = Host.dotGeneral (F := Ideal) (φ₁ := .f32) (φ₂ := .f32) (DotDims.plain 100000 128 128) none x0 x2 := by
  unfold val_main_v27
  exact congrArg (fun d : DotDims S100000x128 S128x128 S100000x128 => Host.dotGeneral (F := Ideal) (φ₁ := .f32) (φ₂ := .f32) d none x0 x2) dot128_eq

/-- Layer 2's product: layer 1's rectified output times the second weight matrix. -/
theorem product2 :
    val_main_v45 (F := Ideal) x0 x1 x2 x3 x4
      = Host.dotGeneral (F := Ideal) (φ₁ := .f32) (φ₂ := .f32) (DotDims.plain 100000 128 128) none (val_main_v44 (F := Ideal) x0 x1 x2 x3) x4 := by
  unfold val_main_v45
  generalize val_main_v44 (F := Ideal) x0 x1 x2 x3 = Y
  exact congrArg (fun d : DotDims S100000x128 S128x128 S100000x128 => Host.dotGeneral (F := Ideal) (φ₁ := .f32) (φ₂ := .f32) d none Y x4) dot128_eq

/-- Layer 3's product: layer 2's rectified output times the third weight matrix. -/
theorem product3 :
    val_main_v63 (F := Ideal) x0 x1 x2 x3 x4 x5 x6
      = Host.dotGeneral (F := Ideal) (φ₁ := .f32) (φ₂ := .f32) (DotDims.plain 100000 128 128) none (val_main_v62 (F := Ideal) x0 x1 x2 x3 x4 x5) x6 := by
  unfold val_main_v63
  generalize val_main_v62 (F := Ideal) x0 x1 x2 x3 x4 x5 = Y
  exact congrArg (fun d : DotDims S100000x128 S128x128 S100000x128 => Host.dotGeneral (F := Ideal) (φ₁ := .f32) (φ₂ := .f32) d none Y x6) dot128_eq

/-- The last product: layer 3's biased aggregate times the output weight matrix. -/
theorem product4 :
    val_main_v80 (F := Ideal) x0 x1 x2 x3 x4 x5 x6 x7 x8
      = Host.dotGeneral (F := Ideal) (φ₁ := .f32) (φ₂ := .f32) (DotDims.plain 100000 128 10) none (val_main_v79 (F := Ideal) x0 x1 x2 x3 x4 x5 x6 x7) x8 := by
  unfold val_main_v80
  generalize val_main_v79 (F := Ideal) x0 x1 x2 x3 x4 x5 x6 x7 = Y
  exact congrArg (fun d : DotDims S100000x128 S128x10 S100000x10 => Host.dotGeneral (F := Ideal) (φ₁ := .f32) (φ₂ := .f32) d none Y x8) dot10_eq

/-! ## The result -/

/-- The program's result is the row-wise log-softmax of the logits, in the array program's spelling. -/
theorem result :
    val_main_v84 (F := Ideal) x0 x1 x2 x3 x4 x5 x6 x7 x8 x9
      = hostLogSoftmax (val_main_v83 (F := Ideal) x0 x1 x2 x3 x4 x5 x6 x7 x8 x9) reducesTo_S100000x10_S100000_d1 h_S_
          bcast_S_S100000 bcast_S100000_S100000x1_0 bcast_S100000x1_S100000x10_0_1 := by
  unfold val_main_v84 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst
  generalize val_main_v83 (F := Ideal) x0 x1 x2 x3 x4 x5 x6 x7 x8 x9 = H
  rfl

end Cert.ReferenceIdeal.Layers

end
-- ==== Proof.Chain.lean ====
/-
  The kernel's result, boundary by boundary. The program is eight segments: a stretch of host operations, a launch, a
  stretch, a launch, … Each boundary's buffer contents are the previous boundary's, with the segment's writes laid over
  them. Walking the boundaries in order: the graph's structure (sources, targets, edge weights) and the argument arrays
  are carried unchanged to every boundary that needs them; each launch's result array is the reference's next matrix
  product of the same inputs; each aggregation stretch is the reference's aggregation of them. At the last boundary the
  result array is the reference's result function of the ten argument arrays.
-/
import proofs.«117442_j996432412811_1_alg».proof.Proof.Gen.KernelIdeal.Frame
import proofs.«117442_j996432412811_1_alg».proof.Proof.Region0
import proofs.«117442_j996432412811_1_alg».proof.Proof.Region1
import proofs.«117442_j996432412811_1_alg».proof.Proof.Region2
import proofs.«117442_j996432412811_1_alg».proof.Proof.Region3
import proofs.«117442_j996432412811_1_alg».proof.Proof.Stretches
import proofs.«117442_j996432412811_1_alg».proof.Proof.RefLayers

set_option maxRecDepth 16384

noncomputable section

namespace Cert.KernelIdeal.Result

open Cert.KernelIdeal Cert.KernelIdeal.Gen
open Idealize.ShloMosaic Idealize.ShloMosaic.TcCoe Idealize.ShloMosaic.StableHlo Idealize.SL.Sem
open Cert.ReferenceIdeal.ReadP (val_main_v3 val_main_v6 val_main_v26 val_main_v27 val_main_v40 val_main_v45 val_main_v58 val_main_v63 val_main_v76 val_main_v84)
open Cert.ReferenceIdeal.Layers Cert.Proof.RowBias Cert.Proof.LogSoftmaxRow

variable (m : (ℓ : Loc nD τ sig) → Buf (Elt Ideal) ℓ) (ρ : Dev nD → PrngReg) (c : Dev nD)

/-! ## After the first stretch -/
theorem w1_src : W1 m ρ c (Proc.devRef .tc main_v3) = val_main_v3 (F := Ideal) (m ((c : Thread nD τ).loc main_arg1)) := sources0 (W0 m ρ c)
theorem w1_dst : W1 m ρ c (Proc.devRef .tc main_v6) = val_main_v6 (F := Ideal) (m ((c : Thread nD τ).loc main_arg1)) := targets0 (W0 m ρ c)
theorem w1_nrm : W1 m ρ c (Proc.devRef .tc main_v26) = val_main_v26 (F := Ideal) (m ((c : Thread nD τ).loc main_arg1)) := weights0 (W0 m ρ c)
theorem w1_arg0 : W1 m ρ c (Proc.devRef .tc main_arg0) = (m ((c : Thread nD τ).loc main_arg0)) := kept0_main_arg0 (W0 m ρ c)
theorem w1_arg2 : W1 m ρ c (Proc.devRef .tc main_arg2) = (m ((c : Thread nD τ).loc main_arg2)) := kept0_main_arg2 (W0 m ρ c)
theorem w1_arg3 : W1 m ρ c (Proc.devRef .tc main_arg3) = (m ((c : Thread nD τ).loc main_arg3)) := kept0_main_arg3 (W0 m ρ c)
theorem w1_arg4 : W1 m ρ c (Proc.devRef .tc main_arg4) = (m ((c : Thread nD τ).loc main_arg4)) := kept0_main_arg4 (W0 m ρ c)
theorem w1_arg5 : W1 m ρ c (Proc.devRef .tc main_arg5) = (m ((c : Thread nD τ).loc main_arg5)) := kept0_main_arg5 (W0 m ρ c)
theorem w1_arg6 : W1 m ρ c (Proc.devRef .tc main_arg6) = (m ((c : Thread nD τ).loc main_arg6)) := kept0_main_arg6 (W0 m ρ c)
theorem w1_arg7 : W1 m ρ c (Proc.devRef .tc main_arg7) = (m ((c : Thread nD τ).loc main_arg7)) := kept0_main_arg7 (W0 m ρ c)
theorem w1_arg8 : W1 m ρ c (Proc.devRef .tc main_arg8) = (m ((c : Thread nD τ).loc main_arg8)) := kept0_main_arg8 (W0 m ρ c)
theorem w1_arg9 : W1 m ρ c (Proc.devRef .tc main_arg9) = (m ((c : Thread nD τ).loc main_arg9)) := kept0_main_arg9 (W0 m ρ c)

/-! ## After the first launch -/
theorem w2_src : W2 m ρ c (Proc.devRef .tc main_v3) = val_main_v3 (F := Ideal) (m ((c : Thread nD τ).loc main_arg1)) := (W2_of_ne m ρ c main_v3 (by decide)).trans (w1_src m ρ c)
theorem w2_dst : W2 m ρ c (Proc.devRef .tc main_v6) = val_main_v6 (F := Ideal) (m ((c : Thread nD τ).loc main_arg1)) := (W2_of_ne m ρ c main_v6 (by decide)).trans (w1_dst m ρ c)
theorem w2_nrm : W2 m ρ c (Proc.devRef .tc main_v26) = val_main_v26 (F := Ideal) (m ((c : Thread nD τ).loc main_arg1)) := (W2_of_ne m ρ c main_v26 (by decide)).trans (w1_nrm m ρ c)
theorem w2_arg3 : W2 m ρ c (Proc.devRef .tc main_arg3) = (m ((c : Thread nD τ).loc main_arg3)) := (W2_of_ne m ρ c main_arg3 (by decide)).trans (w1_arg3 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
/-- The first launch's result is the reference's first product. -/
theorem w2_out : W2 m ρ c (Proc.devRef .tc main_v27) = val_main_v27 (F := Ideal) (m ((c : Thread nD τ).loc main_arg0)) (m ((c : Thread nD τ).loc main_arg2)) := by
  refine (W2_arr m ρ c 2).trans ((launch0_result (V1 m ρ) c).trans ?_)
  rw [show V1 m ρ c main_arg0 = (m ((c : Thread nD τ).loc main_arg0)) from w1_arg0 m ρ c, show V1 m ρ c main_arg2 = (m ((c : Thread nD τ).loc main_arg2)) from w1_arg2 m ρ c]
  exact (product1 _ _).symm

/-! ## After the second stretch -/
theorem w3_agg : W3 m ρ c (Proc.devRef .tc main_v40) = val_main_v40 (F := Ideal) (m ((c : Thread nD τ).loc main_arg0)) (m ((c : Thread nD τ).loc main_arg1)) (m ((c : Thread nD τ).loc main_arg2)) :=
  aggregated1 (W2 m ρ c) _ _ _ (w2_src m ρ c) (w2_dst m ρ c) (w2_nrm m ρ c) (w2_out m ρ c)
theorem w3_bias : W3 m ρ c (Proc.devRef .tc main_v41) = shapeCast S1x128 (m ((c : Thread nD τ).loc main_arg3)) shapeCasts_S128_S1x128 :=
  (biasRow1 (W2 m ρ c)).trans (by rw [w2_arg3 m ρ c])
theorem w3_src : W3 m ρ c (Proc.devRef .tc main_v3) = val_main_v3 (F := Ideal) (m ((c : Thread nD τ).loc main_arg1)) := (kept1_main_v3 (W2 m ρ c)).trans (w2_src m ρ c)
theorem w3_dst : W3 m ρ c (Proc.devRef .tc main_v6) = val_main_v6 (F := Ideal) (m ((c : Thread nD τ).loc main_arg1)) := (kept1_main_v6 (W2 m ρ c)).trans (w2_dst m ρ c)
theorem w3_nrm : W3 m ρ c (Proc.devRef .tc main_v26) = val_main_v26 (F := Ideal) (m ((c : Thread nD τ).loc main_arg1)) := (kept1_main_v26 (W2 m ρ c)).trans (w2_nrm m ρ c)
theorem w3_arg4 : W3 m ρ c (Proc.devRef .tc main_arg4) = (m ((c : Thread nD τ).loc main_arg4)) := (kept1_main_arg4 (W2 m ρ c)).trans (w2_arg4 m ρ c)
theorem w3_arg5 : W3 m ρ c (Proc.devRef .tc main_arg5) = (m ((c : Thread nD τ).loc main_arg5)) := (kept1_main_arg5 (W2 m ρ c)).trans (w2_arg5 m ρ c)
theorem w3_arg6 : W3 m ρ c (Proc.devRef .tc main_arg6) = (m ((c : Thread nD τ).loc main_arg6)) := (kept1_main_arg6 (W2 m ρ c)).trans (w2_arg6 m ρ c)
theorem w3_arg7 : W3 m ρ c (Proc.devRef .tc main_arg7) = (m ((c : Thread nD τ).loc main_arg7)) := (kept1_main_arg7 (W2 m ρ c)).trans (w2_arg7 m ρ c)
theorem w3_arg8 : W3 m ρ c (Proc.devRef .tc main_arg8) = (m ((c : Thread nD τ).loc main_arg8)) := (kept1_main_arg8 (W2 m ρ c)).trans (w2_arg8 m ρ c)
theorem w3_arg9 : W3 m ρ c (Proc.devRef .tc main_arg9) = (m ((c : Thread nD τ).loc main_arg9)) := (kept1_main_arg9 (W2 m ρ c)).trans (w2_arg9 m ρ c)

/-! ## After the second launch -/
theorem w4_src : W4 m ρ c (Proc.devRef .tc main_v3) = val_main_v3 (F := Ideal) (m ((c : Thread nD τ).loc main_arg1)) := (W4_of_ne m ρ c main_v3 (by decide)).trans (w3_src m ρ c)
theorem w4_dst : W4 m ρ c (Proc.devRef .tc main_v6) = val_main_v6 (F := Ideal) (m ((c : Thread nD τ).loc main_arg1)) := (W4_of_ne m ρ c main_v6 (by decide)).trans (w3_dst m ρ c)
theorem w4_nrm : W4 m ρ c (Proc.devRef .tc main_v26) = val_main_v26 (F := Ideal) (m ((c : Thread nD τ).loc main_arg1)) := (W4_of_ne m ρ c main_v26 (by decide)).trans (w3_nrm m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
/-- The launch's result is the reference's next product. -/
theorem w4_out : W4 m ρ c (Proc.devRef .tc main_v42) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((launch1_result (V3 m ρ) c).trans ?_)
  rw [show V3 m ρ c main_v40 = val_main_v40 (F := Ideal) (m ((c : Thread nD τ).loc main_arg0)) (m ((c : Thread nD τ).loc main_arg1)) (m ((c : Thread nD τ).loc main_arg2)) from w3_agg m ρ c,
    show V3 m ρ c main_v41 = shapeCast S1x128 (m ((c : Thread nD τ).loc main_arg3)) shapeCasts_S128_S1x128 from w3_bias m ρ c,
    show V3 m ρ c main_arg4 = (m ((c : Thread nD τ).loc main_arg4)) from w3_arg4 m ρ c]
  unfold layerProduct wholeProduct
  rw [rowOf_reshape, ← layer1_in]
  exact (product2 _ _ _ _ _).symm

/-! ## After the third stretch -/
theorem w5_agg : W5 m ρ c (Proc.devRef .tc main_v55) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregated2 (W4 m ρ c) _ _ _ _ _ (w4_src m ρ c) (w4_dst m ρ c) (w4_nrm m ρ c) (w4_out m ρ c)
theorem w5_bias : W5 m ρ c (Proc.devRef .tc main_v56) = shapeCast S1x128 (m ((c : Thread nD τ).loc main_arg5)) shapeCasts_S128_S1x128 :=
  (biasRow2 (W4 m ρ c)).trans (by rw [w4_arg5 m ρ c])
theorem w5_src : W5 m ρ c (Proc.devRef .tc main_v3) = val_main_v3 (F := Ideal) (m ((c : Thread nD τ).loc main_arg1)) := (kept2_main_v3 (W4 m ρ c)).trans (w4_src m ρ c)
theorem w5_dst : W5 m ρ c (Proc.devRef .tc main_v6) = val_main_v6 (F := Ideal) (m ((c : Thread nD τ).loc main_arg1)) := (kept2_main_v6 (W4 m ρ c)).trans (w4_dst m ρ c)
theorem w5_nrm : W5 m ρ c (Proc.devRef .tc main_v26) = val_main_v26 (F := Ideal) (m ((c : Thread nD τ).loc main_arg1)) := (kept2_main_v26 (W4 m ρ c)).trans (w4_nrm m ρ c)
theorem w5_arg6 : W5 m ρ c (Proc.devRef .tc main_arg6) = (m ((c : Thread nD τ).loc main_arg6)) := (kept2_main_arg6 (W4 m ρ c)).trans (w4_arg6 m ρ c)
theorem w5_arg7 : W5 m ρ c (Proc.devRef .tc main_arg7) = (m ((c : Thread nD τ).loc main_arg7)) := (kept2_main_arg7 (W4 m ρ c)).trans (w4_arg7 m ρ c)
theorem w5_arg8 : W5 m ρ c (Proc.devRef .tc main_arg8) = (m ((c : Thread nD τ).loc main_arg8)) := (kept2_main_arg8 (W4 m ρ c)).trans (w4_arg8 m ρ c)
theorem w5_arg9 : W5 m ρ c (Proc.devRef .tc main_arg9) = (m ((c : Thread nD τ).loc main_arg9)) := (kept2_main_arg9 (W4 m ρ c)).trans (w4_arg9 m ρ c)

/-! ## After the third launch -/
theorem w6_src : W6 m ρ c (Proc.devRef .tc main_v3) = val_main_v3 (F := Ideal) (m ((c : Thread nD τ).loc main_arg1)) := (W6_of_ne m ρ c main_v3 (by decide)).trans (w5_src m ρ c)
theorem w6_dst : W6 m ρ c (Proc.devRef .tc main_v6) = val_main_v6 (F := Ideal) (m ((c : Thread nD τ).loc main_arg1)) := (W6_of_ne m ρ c main_v6 (by decide)).trans (w5_dst m ρ c)
theorem w6_nrm : W6 m ρ c (Proc.devRef .tc main_v26) = val_main_v26 (F := Ideal) (m ((c : Thread nD τ).loc main_arg1)) := (W6_of_ne m ρ c main_v26 (by decide)).trans (w5_nrm m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)
/-- The launch's result is the reference's next product. -/
theorem w6_out : W6 m ρ c (Proc.devRef .tc main_v57) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((launch2_result (V5 m ρ) c).trans ?_)
  rw [show V5 m ρ c main_v55 = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from w5_agg m ρ c,
    show V5 m ρ c main_v56 = shapeCast S1x128 (m ((c : Thread nD τ).loc main_arg5)) shapeCasts_S128_S1x128 from w5_bias m ρ c,
    show V5 m ρ c main_arg6 = (m ((c : Thread nD τ).loc main_arg6)) from w5_arg6 m ρ c]
  unfold layerProduct wholeProduct
  rw [rowOf_reshape, ← layer2_in]
  exact (product3 _ _ _ _ _ _ _).symm

/-! ## After the fourth stretch -/
theorem w7_agg : W7 m ρ c (Proc.devRef .tc main_v70) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  aggregated3 (W6 m ρ c) _ _ _ _ _ _ _ (w6_src m ρ c) (w6_dst m ρ c) (w6_nrm m ρ c) (w6_out m ρ c)
theorem w7_bias : W7 m ρ c (Proc.devRef .tc main_v71) = shapeCast S1x128 (m ((c : Thread nD τ).loc main_arg7)) shapeCasts_S128_S1x128 :=
  (biasRow3 (W6 m ρ c)).trans (by rw [w6_arg7 m ρ c])
theorem w7_cbias : W7 m ρ c (Proc.devRef .tc main_v72) = shapeCast S1x10 (m ((c : Thread nD τ).loc main_arg9)) shapeCasts_S10_S1x10 :=
  (biasRow4 (W6 m ρ c)).trans (by rw [w6_arg9 m ρ c])
theorem w7_arg8 : W7 m ρ c (Proc.devRef .tc main_arg8) = (m ((c : Thread nD τ).loc main_arg8)) := (kept3_main_arg8 (W6 m ρ c)).trans (w6_arg8 m ρ c)

/-! ## After the last launch: the result -/
/-- The result array ends at the reference's result function of the ten argument arrays. -/
theorem kernel_result : W8 m ρ c (Proc.devRef .tc main_v73) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 4).trans ((launch3_result (V7 m ρ) Cert.ReferenceIdeal.Facts₀.reducesTo_S100000x10_S100000_d1 Cert.ReferenceIdeal.Facts₀.h_S_ Cert.ReferenceIdeal.Facts₀.bcast_S_S100000
    Cert.ReferenceIdeal.Facts₀.bcast_S100000_S100000x1_0 Cert.ReferenceIdeal.Facts₀.bcast_S100000x1_S100000x10_0_1 c).trans ?_)
  rw [show V7 m ρ c main_v70 = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from w7_agg m ρ c,
    show V7 m ρ c main_v71 = shapeCast S1x128 (m ((c : Thread nD τ).loc main_arg7)) shapeCasts_S128_S1x128 from w7_bias m ρ c,
    show V7 m ρ c main_arg8 = (m ((c : Thread nD τ).loc main_arg8)) from w7_arg8 m ρ c,
    show V7 m ρ c main_v72 = shapeCast S1x10 (m ((c : Thread nD τ).loc main_arg9)) shapeCasts_S10_S1x10 from w7_cbias m ρ c]
  unfold resultOf logitsOf
  rw [rowOf_reshape, rowOf_reshape, ← layer3_in, ← product4, ← logits]
  exact (result _ _ _ _ _ _ _ _ _ _).symm

end Cert.KernelIdeal.Result

end
-- ==== Proof.lean ====
/-
  A three-layer graph convolution network with symmetric degree normalisation and a row-wise log-softmax head, computed by
  four grid launches among stretches of host operations, against the same network in plain array operations.

  Both programs build the graph's structure from the edge list in the same way (self-loops appended, degrees by a
  scatter-add of ones, edge weight = the product of the reciprocal square roots of the two end nodes' degrees) and
  aggregate with the same gather, scaling and scatter-add. They differ only in the dense steps: where the reference
  multiplies the whole 100000-row feature array by a weight matrix, a launch multiplies twenty blocks of 5000 rows; where
  the reference adds a bias row and rectifies the whole array, a launch does so block by block before its product; and the
  last launch takes each block's logits and their row-wise log-softmax where the reference takes the whole array's. Every
  one of these steps computes row r of its result from row r of its input alone, and on the extended reals a change of
  float format is the identity and a sum may be taken in any order, so block by block and whole-array agree entry by
  entry. Nothing has to be finite: no term is rearranged across a sum or a product, and the one extra operation on the
  reference's side, a maximum with minus infinity, is the identity.

  The three frames: the word-level kernel's and the idealized kernel's are the generated ones; the reference's is its run
  with the result dropped. The idealization rewrote no operation, so there is nothing to preserve.
-/
import proofs.«117442_j996432412811_1_alg».proof.Defs
import proofs.«117442_j996432412811_1_alg».proof.Proof.Gen.Kernel
import proofs.«117442_j996432412811_1_alg».proof.Proof.Gen.Kernel.Skeleton
import proofs.«117442_j996432412811_1_alg».proof.Proof.Gen.Kernel.Launch
import proofs.«117442_j996432412811_1_alg».proof.Proof.Gen.Kernel.Points
import proofs.«117442_j996432412811_1_alg».proof.Proof.Gen.Kernel.Frame
import proofs.«117442_j996432412811_1_alg».proof.Proof.Gen.KernelIdeal
import proofs.«117442_j996432412811_1_alg».proof.Proof.Gen.KernelIdeal.Skeleton
import proofs.«117442_j996432412811_1_alg».proof.Proof.Gen.KernelIdeal.Launch
import proofs.«117442_j996432412811_1_alg».proof.Proof.Gen.KernelIdeal.Points
import proofs.«117442_j996432412811_1_alg».proof.Proof.Gen.KernelIdeal.Frame
import proofs.«117442_j996432412811_1_alg».proof.Proof.Gen.ReferenceIdeal
import proofs.«117442_j996432412811_1_alg».proof.Proof.Gen.Pre_finite_inputs
import proofs.«117442_j996432412811_1_alg».proof.Proof.RefRun
import proofs.«117442_j996432412811_1_alg».proof.Proof.KernelRun
import proofs.«117442_j996432412811_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Staged.run m ρ)

/-- From memories agreeing on the ten argument arrays both programs end with the same result array: the reference's result
    function of the arguments. -/
theorem algebraic : Cert.algebraic_KernelIdeal_ReferenceIdeal := by
  intro m ρ m' ρ' _ hagree
  refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.kernel_result m ρ c), (h c).2⟩) (Cert.KernelIdeal.Result.run_result m ρ)
  · refine (θ_run Cert.ReferenceIdeal.defs _ _).mono (fun _ h c => ⟨(h c).1.trans ?_, (h c).2⟩) (Cert.ReferenceIdeal.Staged.run m' ρ')
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
